-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x80000x91 : Shape := ⟨3, ![8, 80000, 91]⟩
abbrev S8x100 : Shape := ⟨2, ![8, 100]⟩
abbrev S8x80000 : Shape := ⟨2, ![8, 80000]⟩
abbrev S_ : Shape := ⟨0, ![]⟩

class Facts : Prop where
  bcast_S_S8x80000x91 : S_.BroadcastsInDim S8x80000x91 (![] : Fin 0 → Fin S8x80000x91.rank)
  reducesTo_S8x80000x91_S_d0_1_2 : S8x80000x91.ReducesTo [0, 1, 2] S_
  h_S_ : 0 < S_.numel
  bcast_S_S8x100 : S_.BroadcastsInDim S8x100 (![] : Fin 0 → Fin S8x100.rank)
  reducesTo_S8x100_S_d0_1 : S8x100.ReducesTo [0, 1] S_

variable [Facts]

def fn {F : FTy → Type} [FloatOps F] (main_arg0 : FVec F S8x80000x91 .f32) (main_arg1 : IVec S8x100 32) (main_arg2 : IVec S8x80000 32) : IVec S_ 1 :=
  let main_v0 : FVec F S8x80000x91 .f32 := Host.absf main_arg0
  let main_cst : FVec F S_ .f32 := constant S_ .f32 0x7F800000#32
  let main_v1 : FVec F S8x80000x91 .f32 := broadcastInDim S8x80000x91 ![] bcast_S_S8x80000x91 main_cst
  let main_v2 : IVec S8x80000x91 1 := cmpf .olt main_v0 main_v1
  let main_c : IVec S_ 1 := constantI S_ 1 1#1
  let main_v3 : IVec S_ 1 := (fun x v => Host.reduce IntOp.andi x v reducesTo_S8x80000x91_S_d0_1_2 h_S_) main_v2 main_c
  let main_c_0 : IVec S_ 32 := constantI S_ 32 0#32
  let main_v4 : IVec S8x100 32 := broadcastInDim S8x100 ![] bcast_S_S8x100 main_c_0
  let main_v5 : IVec S8x100 1 := cmpi .sge main_arg1 main_v4
  let main_c_1 : IVec S_ 1 := constantI S_ 1 1#1
  let main_v6 : IVec S_ 1 := (fun x v => Host.reduce IntOp.andi x v reducesTo_S8x100_S_d0_1 h_S_) main_v5 main_c_1
  let main_v7 : IVec S_ 1 := andi main_v3 main_v6
  let main_c_2 : IVec S_ 32 := constantI S_ 32 91#32
  let main_v8 : IVec S8x100 32 := broadcastInDim S8x100 ![] bcast_S_S8x100 main_c_2
  let main_v9 : IVec S8x100 1 := cmpi .slt main_arg1 main_v8
  let main_c_3 : IVec S_ 1 := constantI S_ 1 1#1
  let main_v10 : IVec S_ 1 := (fun x v => Host.reduce IntOp.andi x v reducesTo_S8x100_S_d0_1 h_S_) main_v9 main_c_3
  let main_v11 : IVec S_ 1 := andi main_v7 main_v10
  main_v11
-- ==== Kernel.lean ====
abbrev S8x80000x91 : Shape := ⟨3, ![8, 80000, 91]⟩
abbrev S8x100 : Shape := ⟨2, ![8, 100]⟩
abbrev S8x80000 : Shape := ⟨2, ![8, 80000]⟩
abbrev S_ : Shape := ⟨0, ![]⟩
abbrev S8x80000x1 : Shape := ⟨3, ![8, 80000, 1]⟩
abbrev S1 : Shape := ⟨1, ![1]⟩
abbrev S1x1x1 : Shape := ⟨3, ![1, 1, 1]⟩
abbrev S8x1x128 : Shape := ⟨3, ![8, 1, 128]⟩
abbrev S1x5000x91 : Shape := ⟨3, ![1, 5000, 91]⟩
abbrev S1x5000x1 : Shape := ⟨3, ![1, 5000, 1]⟩
abbrev S1x1x128 : Shape := ⟨3, ![1, 1, 128]⟩
abbrev S1x128 : Shape := ⟨2, ![1, 128]⟩
abbrev S5000x91 : Shape := ⟨2, ![5000, 91]⟩
abbrev S5000x1 : Shape := ⟨2, ![5000, 1]⟩
abbrev S5000 : Shape := ⟨1, ![5000]⟩
abbrev S1x1 : Shape := ⟨2, ![1, 1]⟩
abbrev S128 : Shape := ⟨1, ![128]⟩
abbrev S8x1x1 : Shape := ⟨3, ![8, 1, 1]⟩
abbrev S8 : Shape := ⟨1, ![8]⟩

abbrev nBuf : Space → Nat
  | .hbm => 57
  | .vmem => 7
  | .smem => 0
  | _ => 0

abbrev bufTy : (tb : Table) → Fin (tcTables nBuf tb) → BufTy
  | .hbm, ⟨0, _⟩ => ⟨S8x80000x91, .f32⟩
  | .hbm, ⟨1, _⟩ => ⟨S8x100, .i32⟩
  | .hbm, ⟨2, _⟩ => ⟨S8x80000, .i32⟩
  | .hbm, ⟨3, _⟩ => ⟨S_, .i32⟩
  | .hbm, ⟨4, _⟩ => ⟨S8x80000, .i32⟩
  | .hbm, ⟨5, _⟩ => ⟨S8x80000, .i1⟩
  | .hbm, ⟨6, _⟩ => ⟨S_, .i32⟩
  | .hbm, ⟨7, _⟩ => ⟨S8x80000, .i32⟩
  | .hbm, ⟨8, _⟩ => ⟨S8x80000, .i1⟩
  | .hbm, ⟨9, _⟩ => ⟨S_, .i32⟩
  | .hbm, ⟨10, _⟩ => ⟨S_, .i32⟩
  | .hbm, ⟨11, _⟩ => ⟨S8x80000, .i32⟩
  | .hbm, ⟨12, _⟩ => ⟨S8x80000, .i32⟩
  | .hbm, ⟨13, _⟩ => ⟨S_, .i32⟩
  | .hbm, ⟨14, _⟩ => ⟨S8x80000, .i32⟩
  | .hbm, ⟨15, _⟩ => ⟨S8x80000, .i1⟩
  | .hbm, ⟨16, _⟩ => ⟨S_, .i32⟩
  | .hbm, ⟨17, _⟩ => ⟨S8x80000, .i32⟩
  | .hbm, ⟨18, _⟩ => ⟨S8x80000, .i32⟩
  | .hbm, ⟨19, _⟩ => ⟨S8x80000, .i32⟩
  | .hbm, ⟨20, _⟩ => ⟨S8x80000x1, .i32⟩
  | .hbm, ⟨21, _⟩ => ⟨S1, .i32⟩
  | .hbm, ⟨22, _⟩ => ⟨S_, .i32⟩
  | .hbm, ⟨23, _⟩ => ⟨S8x80000x1, .i32⟩
  | .hbm, ⟨24, _⟩ => ⟨S8x80000x1, .i1⟩
  | .hbm, ⟨25, _⟩ => ⟨S1x1x1, .i32⟩
  | .hbm, ⟨26, _⟩ => ⟨S8x80000x1, .i32⟩
  | .hbm, ⟨27, _⟩ => ⟨S8x80000x1, .i1⟩
  | .hbm, ⟨28, _⟩ => ⟨S8x80000x1, .i1⟩
  | .hbm, ⟨29, _⟩ => ⟨S_, .i1⟩
  | .hbm, ⟨30, _⟩ => ⟨S8x80000, .i1⟩
  | .hbm, ⟨31, _⟩ => ⟨S8x80000, .i32⟩
  | .hbm, ⟨32, _⟩ => ⟨S_, .i32⟩
  | .hbm, ⟨33, _⟩ => ⟨S8x80000, .i32⟩
  | .hbm, ⟨34, _⟩ => ⟨S8x80000, .i32⟩
  | .hbm, ⟨35, _⟩ => ⟨S_, .i32⟩
  | .hbm, ⟨36, _⟩ => ⟨S_, .i32⟩
  | .hbm, ⟨37, _⟩ => ⟨S8x80000, .i32⟩
  | .hbm, ⟨38, _⟩ => ⟨S8x80000, .i32⟩
  | .hbm, ⟨39, _⟩ => ⟨S8x80000, .i32⟩
  | .hbm, ⟨40, _⟩ => ⟨S8x80000, .i32⟩
  | .hbm, ⟨41, _⟩ => ⟨S8x80000x1, .i32⟩
  | .hbm, ⟨42, _⟩ => ⟨S8x1x128, .f32⟩
  | .hbm, ⟨43, _⟩ => ⟨S8x1x1, .f32⟩
  | .hbm, ⟨44, _⟩ => ⟨S8, .f32⟩
  | .hbm, ⟨45, _⟩ => ⟨S8x80000, .i32⟩
  | .hbm, ⟨46, _⟩ => ⟨S_, .i32⟩
  | .hbm, ⟨47, _⟩ => ⟨S8, .i32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .local _ .vmem, ⟨0, _⟩ => ⟨S1x5000x91, .f32⟩
  | .local _ .vmem, ⟨1, _⟩ => ⟨S1x5000x91, .f32⟩
  | .local _ .vmem, ⟨2, _⟩ => ⟨S1x5000x1, .i32⟩
  | .local _ .vmem, ⟨3, _⟩ => ⟨S1x5000x1, .i32⟩
  | .local _ .vmem, ⟨4, _⟩ => ⟨S1x1x128, .f32⟩
  | .local _ .vmem, ⟨5, _⟩ => ⟨S1x1x128, .f32⟩
  | .local _ .vmem, ⟨6, _⟩ => ⟨S1x128, .f32⟩
  | _, _ => ⟨S8x80000x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_c_1 : Ref sig .tc := ⟨.hbm, 21, rfl⟩
abbrev main_call1_c_2 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_3 : Ref sig .tc := ⟨.hbm, 29, rfl⟩
abbrev main_call1_v12 : Ref sig .tc := ⟨.hbm, 30, rfl⟩
abbrev main_call1_v13 : Ref sig .tc := ⟨.hbm, 31, rfl⟩
abbrev main_call1_c_4 : Ref sig .tc := ⟨.hbm, 32, rfl⟩
abbrev main_call1_v14 : Ref sig .tc := ⟨.hbm, 33, rfl⟩
abbrev main_v5 : Ref sig .tc := ⟨.hbm, 34, rfl⟩
abbrev main_c_2 : Ref sig .tc := ⟨.hbm, 35, rfl⟩
abbrev main_c_3 : Ref sig .tc := ⟨.hbm, 36, rfl⟩
abbrev main_call2_v0 : Ref sig .tc := ⟨.hbm, 37, rfl⟩
abbrev main_call2_v1 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_c_4 : Ref sig .tc := ⟨.hbm, 46, rfl⟩
abbrev main_v13 : Ref sig .tc := ⟨.hbm, 47, rfl⟩
abbrev main_v14 : Ref sig .tc := ⟨.hbm, 48, rfl⟩
abbrev main_cst : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_cst_5 : Ref sig .tc := ⟨.hbm, 53, rfl⟩
abbrev main_v18 : Ref sig .tc := ⟨.hbm, 54, rfl⟩
abbrev main_cst_6 : Ref sig .tc := ⟨.hbm, 55, rfl⟩
abbrev main_v19 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v50 : BitVec 1 := Scalar.cmpi .eq arg1 c15_i32
  let v51 : BitVec 32 := Scalar.extui v50
  let c0_i32_17 : BitVec 32 := 0#32
  let v52 : BitVec 1 := Scalar.cmpi .ne v51 c0_i32_17
  v52

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5000x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S8x80000 : S_.BroadcastsInDim S8x80000 (![] : Fin 0 → Fin S8x80000.rank)
  shapeCasts_S8x80000_S8x80000x1 : S8x80000.ShapeCasts S8x80000x1
  bcast_S_S8x80000x1 : S_.BroadcastsInDim S8x80000x1 (![] : Fin 0 → Fin S8x80000x1.rank)
  bcast_S1_S1x1x1_2 : S1.BroadcastsInDim S1x1x1 (![2] : Fin 1 → Fin S1x1x1.rank)
  bcast_S1x1x1_S8x80000x1_0_1_2 : S1x1x1.BroadcastsInDim S8x80000x1 (![0, 1, 2] : Fin 3 → Fin S8x80000x1.rank)
  reducesTo_S8x80000x1_S8x80000_d2 : S8x80000x1.ReducesTo [2] S8x80000
  h_S_ : 0 < S_.numel
  bcast_S8x80000_S8x80000x1_0_1 : S8x80000.BroadcastsInDim S8x80000x1 (![0, 1] : Fin 2 → Fin S8x80000x1.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x5000x91_S1x5000x91_0_0_0 : ∀ a, (![0, 0, 0] : Fin 3 → Nat) a + S1x5000x91.size a ≤ S1x5000x91.size a
  h_S1x5000x91 : 0 < S1x5000x91.numel
  shapeCasts_S1x5000x91_S5000x91 : S1x5000x91.ShapeCasts S5000x91
  inb_S1x5000x1_S1x5000x1_0_0_0 : ∀ a, (![0, 0, 0] : Fin 3 → Nat) a + S1x5000x1.size a ≤ S1x5000x1.size a
  h_S1x5000x1 : 0 < S1x5000x1.numel
  shapeCasts_S1x5000x1_S5000x1 : S1x5000x1.ShapeCasts S5000x1
  iota_S5000x91_d1_w32 : S5000x91.Iotas .tc 32 [1]
  broadcasts_S5000x1_S5000x91 : S5000x1.Broadcasts S5000x91
  natLt_1_32 : 1 < 32
  reduces_S5000x91_S5000 : S5000x91.Reduces [1] S5000
  shapeCasts_S5000_S5000x1 : S5000.ShapeCasts S5000x1
  reduces_S5000x1_S1 : S5000x1.Reduces [0] S1
  shapeCasts_S1_S1x1 : S1.ShapeCasts S1x1
  inpos_S1x1_p0_0 : ∀ a, (![0, 0] : Fin 2 → Nat) a < S1x1.size a
  shapeCasts_S1x128_S128 : S1x128.ShapeCasts S128
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  shapeCasts_S128_S1x1x128 : S128.ShapeCasts S1x1x128
  slices_S8x1x128_S8x1x1_0_0_0 : S8x1x128.Slices ![0, 0, 0] S8x1x1
  shapeCasts_S8x1x1_S8 : S8x1x1.ShapeCasts S8
  reducesTo_S8x80000_S8_d1 : S8x80000.ReducesTo [1] S8
  bcast_S_S8 : S_.BroadcastsInDim S8 (![] : Fin 0 → Fin S8.rank)
  reducesTo_S8_S_d0 : S8.ReducesTo [0] S_
  gather_S8x100_S8x80000x1_S8x80000_n_1_0_0_1_2_11_wf : GatherDims.WF S8x100 S8x80000x1 S8x80000 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x91.size a ≤ S8x80000x91.size a
  hwx0_0 : ∀ i : grid0.Coords, EltTy.bits .f32 = 32 ∨ (Rect.block (s := S8x80000x91) S1x5000x91.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5000x1.size a ≤ S8x80000x1.size a
  hwx0_1 : ∀ i : grid0.Coords, EltTy.bits .i32 = 32 ∨ (Rect.block (s := S8x80000x1) S1x5000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)

variable [Facts₀]

def gather_S8x100_S8x80000x1_S8x80000_n_1_0_0_1_2_11 : GatherDims S8x100 S8x80000x1 S8x80000 where
  offsetDims := []
  collapsedSliceDims := [1]
  operandBatchingDims := [0]
  startIndicesBatchingDims := [0]
  startIndexMap := [1]
  indexVectorDim := 2
  sliceSizes := ![1, 1]
  wf := gather_S8x100_S8x80000x1_S8x80000_n_1_0_0_1_2_11_wf

abbrev win0_0 : Pipeline.Window sig grid0 :=
  Pipeline.Window.ofSpec (Memref.whole main_arg0) S1x5000x91.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x80000x91 : Shape := ⟨3, ![8, 80000, 91]⟩
abbrev S8x100 : Shape := ⟨2, ![8, 100]⟩
abbrev S8x80000 : Shape := ⟨2, ![8, 80000]⟩
abbrev S_ : Shape := ⟨0, ![]⟩
abbrev S8x80000x1 : Shape := ⟨3, ![8, 80000, 1]⟩
abbrev S1 : Shape := ⟨1, ![1]⟩
abbrev S1x1x1 : Shape := ⟨3, ![1, 1, 1]⟩
abbrev S91 : Shape := ⟨1, ![91]⟩
abbrev S1x1x91 : Shape := ⟨3, ![1, 1, 91]⟩
abbrev S8 : Shape := ⟨1, ![8]⟩

abbrev nBuf : Space → Nat
  | .hbm => 108
  | .vmem => 0
  | .smem => 0
  | _ => 0

abbrev bufTy : (tb : Table) → Fin (tcTables nBuf tb) → BufTy
  | .hbm, ⟨0, _⟩ => ⟨S8x80000x91, .f32⟩
  | .hbm, ⟨1, _⟩ => ⟨S8x100, .i32⟩
  | .hbm, ⟨2, _⟩ => ⟨S8x80000, .i32⟩
  | .hbm, ⟨3, _⟩ => ⟨S_, .i32⟩
  | .hbm, ⟨4, _⟩ => ⟨S8x80000, .i32⟩
  | .hbm, ⟨5, _⟩ => ⟨S8x80000, .i1⟩
  | .hbm, ⟨6, _⟩ => ⟨S_, .i32⟩
  | .hbm, ⟨7, _⟩ => ⟨S8x80000, .i32⟩
  | .hbm, ⟨8, _⟩ => ⟨S8x80000, .i1⟩
  | .hbm, ⟨9, _⟩ => ⟨S_, .i32⟩
  | .hbm, ⟨10, _⟩ => ⟨S_, .i32⟩
  | .hbm, ⟨11, _⟩ => ⟨S8x80000, .i32⟩
  | .hbm, ⟨12, _⟩ => ⟨S8x80000, .i32⟩
  | .hbm, ⟨13, _⟩ => ⟨S_, .i32⟩
  | .hbm, ⟨14, _⟩ => ⟨S8x80000, .i32⟩
  | .hbm, ⟨15, _⟩ => ⟨S8x80000, .i1⟩
  | .hbm, ⟨16, _⟩ => ⟨S_, .i32⟩
  | .hbm, ⟨17, _⟩ => ⟨S8x80000, .i32⟩
  | .hbm, ⟨18, _⟩ => ⟨S8x80000, .i32⟩
  | .hbm, ⟨19, _⟩ => ⟨S8x80000, .i32⟩
  | .hbm, ⟨20, _⟩ => ⟨S8x80000x1, .i32⟩
  | .hbm, ⟨21, _⟩ => ⟨S1, .i32⟩
  | .hbm, ⟨22, _⟩ => ⟨S_, .i32⟩
  | .hbm, ⟨23, _⟩ => ⟨S8x80000x1, .i32⟩
  | .hbm, ⟨24, _⟩ => ⟨S8x80000x1, .i1⟩
  | .hbm, ⟨25, _⟩ => ⟨S1x1x1, .i32⟩
  | .hbm, ⟨26, _⟩ => ⟨S8x80000x1, .i32⟩
  | .hbm, ⟨27, _⟩ => ⟨S8x80000x1, .i1⟩
  | .hbm, ⟨28, _⟩ => ⟨S8x80000x1, .i1⟩
  | .hbm, ⟨29, _⟩ => ⟨S_, .i1⟩
  | .hbm, ⟨30, _⟩ => ⟨S8x80000, .i1⟩
  | .hbm, ⟨31, _⟩ => ⟨S8x80000, .i32⟩
  | .hbm, ⟨32, _⟩ => ⟨S_, .i32⟩
  | .hbm, ⟨33, _⟩ => ⟨S8x80000, .i32⟩
  | .hbm, ⟨34, _⟩ => ⟨S8x80000, .i32⟩
  | .hbm, ⟨35, _⟩ => ⟨S8x80000x1, .i1⟩
  | .hbm, ⟨36, _⟩ => ⟨S91, .i32⟩
  | .hbm, ⟨37, _⟩ => ⟨S1x1x91, .i32⟩
  | .hbm, ⟨38, _⟩ => ⟨S8x80000x1, .i32⟩
  | .hbm, ⟨39, _⟩ => ⟨S8x80000x91, .i32⟩
  | .hbm, ⟨40, _⟩ => ⟨S8x80000x91, .i32⟩
  | .hbm, ⟨41, _⟩ => ⟨S8x80000x91, .i1⟩
  | .hbm, ⟨42, _⟩ => ⟨S8x80000x91, .i1⟩
  | .hbm, ⟨43, _⟩ => ⟨S8x80000x91, .i1⟩
  | .hbm, ⟨44, _⟩ => ⟨S8x80000x91, .f32⟩
  | .hbm, ⟨45, _⟩ => ⟨S8x80000x91, .f32⟩
  | .hbm, ⟨46, _⟩ => ⟨S8x80000x91, .f32⟩
  | .hbm, ⟨47, _⟩ => ⟨S_, .f32⟩
  | .hbm, ⟨48, _⟩ => ⟨S8x80000x91, .f32⟩
  | .hbm, ⟨49, _⟩ => ⟨S8x80000x91, .f32⟩
  | .hbm, ⟨50, _⟩ => ⟨S_, .f32⟩
  | .hbm, ⟨51, _⟩ => ⟨S8x80000x91, .f32⟩
  | .hbm, ⟨52, _⟩ => ⟨S8x80000x91, .f32⟩
  | .hbm, ⟨53, _⟩ => ⟨S_, .f32⟩
  | .hbm, ⟨54, _⟩ => ⟨S8x80000x91, .f32⟩
  | .hbm, ⟨55, _⟩ => ⟨S8x80000x91, .f32⟩
  | .hbm, ⟨56, _⟩ => ⟨S8x80000x91, .f32⟩
  | .hbm, ⟨57, _⟩ => ⟨S8x80000x91, .f32⟩
  | .hbm, ⟨58, _⟩ => ⟨S8x80000x91, .f32⟩
  | .hbm, ⟨59, _⟩ => ⟨S8x80000x91, .f32⟩
  | .hbm, ⟨60, _⟩ => ⟨S8x80000x91, .f32⟩
  | .hbm, ⟨61, _⟩ => ⟨S8x80000x91, .f32⟩
  | .hbm, ⟨62, _⟩ => ⟨S8x80000x91, .f32⟩
  | .hbm, ⟨63, _⟩ => ⟨S8x80000x91, .f32⟩
  | .hbm, ⟨64, _⟩ => ⟨S_, .f32⟩
  | .hbm, ⟨65, _⟩ => ⟨S8x80000x91, .f32⟩
  | .hbm, ⟨66, _⟩ => ⟨S8x80000x91, .f32⟩
  | .hbm, ⟨67, _⟩ => ⟨S_, .f32⟩
  | .hbm, ⟨68, _⟩ => ⟨S8x80000x91, .f32⟩
  | .hbm, ⟨69, _⟩ => ⟨S8x80000x91, .f32⟩
  | .hbm, ⟨70, _⟩ => ⟨S8x80000x91, .f32⟩
  | .hbm, ⟨71, _⟩ => ⟨S8x80000x91, .f32⟩
  | .hbm, ⟨72, _⟩ => ⟨S_, .f32⟩
  | .hbm, ⟨73, _⟩ => ⟨S8x80000x91, .f32⟩
  | .hbm, ⟨74, _⟩ => ⟨S8x80000x91, .f32⟩
  | .hbm, ⟨75, _⟩ => ⟨S_, .f32⟩
  | .hbm, ⟨76, _⟩ => ⟨S8x80000x91, .f32⟩
  | .hbm, ⟨77, _⟩ => ⟨S8x80000x91, .f32⟩
  | .hbm, ⟨78, _⟩ => ⟨S_, .f32⟩
  | .hbm, ⟨79, _⟩ => ⟨S8x80000x91, .f32⟩
  | .hbm, ⟨80, _⟩ => ⟨S8x80000x91, .f32⟩
  | .hbm, ⟨81, _⟩ => ⟨S8x80000x91, .f32⟩
  | .hbm, ⟨82, _⟩ => ⟨S8x80000x91, .f32⟩
  | .hbm, ⟨83, _⟩ => ⟨S_, .f32⟩
  | .hbm, ⟨84, _⟩ => ⟨S8x80000x91, .f32⟩
  | .hbm, ⟨85, _⟩ => ⟨S8x80000x91, .f32⟩
  | .hbm, ⟨86, _⟩ => ⟨S_, .f32⟩
  | .hbm, ⟨87, _⟩ => ⟨S8x80000x91, .f32⟩
  | .hbm, ⟨88, _⟩ => ⟨S8x80000x91, .f32⟩
  | .hbm, ⟨89, _⟩ => ⟨S8x80000x91, .f32⟩
  | .hbm, ⟨90, _⟩ => ⟨S8x80000x1, .i1⟩
  | .hbm, ⟨91, _⟩ => ⟨S8x80000x1, .f32⟩
  | .hbm, ⟨92, _⟩ => ⟨S8x80000x91, .f32⟩
  | .hbm, ⟨93, _⟩ => ⟨S8x80000x91, .f32⟩
  | .hbm, ⟨94, _⟩ => ⟨S8x80000, .i32⟩
  | .hbm, ⟨95, _⟩ => ⟨S_, .i32⟩
  | .hbm, ⟨96, _⟩ => ⟨S8, .i32⟩
  | .hbm, ⟨97, _⟩ => ⟨S_, .f32⟩
  | .hbm, ⟨98, _⟩ => ⟨S8, .f32⟩
  | .hbm, ⟨99, _⟩ => ⟨S_, .i32⟩
  | .hbm, ⟨100, _⟩ => ⟨S8, .i32⟩
  | .hbm, ⟨101, _⟩ => ⟨S8, .i32⟩
  | .hbm, ⟨102, _⟩ => ⟨S8, .f32⟩
  | .hbm, ⟨103, _⟩ => ⟨S8, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | _, _ => ⟨S8x80000x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_c_1 : Ref sig .tc := ⟨.hbm, 21, rfl⟩
abbrev main_call1_c_2 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_3 : Ref sig .tc := ⟨.hbm, 29, rfl⟩
abbrev main_call1_v12 : Ref sig .tc := ⟨.hbm, 30, rfl⟩
abbrev main_call1_v13 : Ref sig .tc := ⟨.hbm, 31, rfl⟩
abbrev main_call1_c_4 : Ref sig .tc := ⟨.hbm, 32, rfl⟩
abbrev main_call1_v14 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst : Ref sig .tc := ⟨.hbm, 47, rfl⟩
abbrev main_v18 : Ref sig .tc := ⟨.hbm, 48, rfl⟩
abbrev main_v19 : Ref sig .tc := ⟨.hbm, 49, rfl⟩
abbrev main_cst_2 : Ref sig .tc := ⟨.hbm, 50, rfl⟩
abbrev main_v20 : Ref sig .tc := ⟨.hbm, 51, rfl⟩
abbrev main_v21 : Ref sig .tc := ⟨.hbm, 52, rfl⟩
abbrev main_cst_3 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_4 : Ref sig .tc := ⟨.hbm, 64, rfl⟩
abbrev main_v32 : Ref sig .tc := ⟨.hbm, 65, rfl⟩
abbrev main_v33 : Ref sig .tc := ⟨.hbm, 66, rfl⟩
abbrev main_cst_5 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_6 : Ref sig .tc := ⟨.hbm, 72, rfl⟩
abbrev main_v38 : Ref sig .tc := ⟨.hbm, 73, rfl⟩
abbrev main_v39 : Ref sig .tc := ⟨.hbm, 74, rfl⟩
abbrev main_cst_7 : Ref sig .tc := ⟨.hbm, 75, rfl⟩
abbrev main_v40 : Ref sig .tc := ⟨.hbm, 76, rfl⟩
abbrev main_v41 : Ref sig .tc := ⟨.hbm, 77, rfl⟩
abbrev main_cst_8 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_9 : Ref sig .tc := ⟨.hbm, 83, rfl⟩
abbrev main_v46 : Ref sig .tc := ⟨.hbm, 84, rfl⟩
abbrev main_v47 : Ref sig .tc := ⟨.hbm, 85, rfl⟩
abbrev main_cst_10 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_c_11 : Ref sig .tc := ⟨.hbm, 95, rfl⟩
abbrev main_v56 : Ref sig .tc := ⟨.hbm, 96, rfl⟩
abbrev main_cst_12 : Ref sig .tc := ⟨.hbm, 97, rfl⟩
abbrev main_v57 : Ref sig .tc := ⟨.hbm, 98, rfl⟩
abbrev main_c_13 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_14 : Ref sig .tc := ⟨.hbm, 104, rfl⟩
abbrev main_v62 : Ref sig .tc := ⟨.hbm, 105, rfl⟩
abbrev main_cst_15 : Ref sig .tc := ⟨.hbm, 106, rfl⟩
abbrev main_v63 : Ref sig .tc := ⟨.hbm, 107, rfl⟩

abbrev nD : Nat := 1
abbrev τ : Topo := Topo.v7x

variable {F : FTy → Type} [FloatOps F]

class Facts₀ : Prop where
  bcast_S_S8x80000 : S_.BroadcastsInDim S8x80000 (![] : Fin 0 → Fin S8x80000.rank)
  shapeCasts_S8x80000_S8x80000x1 : S8x80000.ShapeCasts S8x80000x1
  bcast_S_S8x80000x1 : S_.BroadcastsInDim S8x80000x1 (![] : Fin 0 → Fin S8x80000x1.rank)
  bcast_S1_S1x1x1_2 : S1.BroadcastsInDim S1x1x1 (![2] : Fin 1 → Fin S1x1x1.rank)
  bcast_S1x1x1_S8x80000x1_0_1_2 : S1x1x1.BroadcastsInDim S8x80000x1 (![0, 1, 2] : Fin 3 → Fin S8x80000x1.rank)
  reducesTo_S8x80000x1_S8x80000_d2 : S8x80000x1.ReducesTo [2] S8x80000
  h_S_ : 0 < S_.numel
  bcast_S8x80000_S8x80000x1_0_1 : S8x80000.BroadcastsInDim S8x80000x1 (![0, 1] : Fin 2 → Fin S8x80000x1.rank)
  bcast_S91_S1x1x91_2 : S91.BroadcastsInDim S1x1x91 (![2] : Fin 1 → Fin S1x1x91.rank)
  bcast_S1x1x91_S8x80000x91_0_1_2 : S1x1x91.BroadcastsInDim S8x80000x91 (![0, 1, 2] : Fin 3 → Fin S8x80000x91.rank)
  bcast_S8x80000x1_S8x80000x91_0_1_2 : S8x80000x1.BroadcastsInDim S8x80000x91 (![0, 1, 2] : Fin 3 → Fin S8x80000x91.rank)
  bcast_S_S8x80000x91 : S_.BroadcastsInDim S8x80000x91 (![] : Fin 0 → Fin S8x80000x91.rank)
  natLt_1_32 : 1 < 32
  reducesTo_S8x80000_S8_d1 : S8x80000.ReducesTo [1] S8
  reducesTo_S8x80000x91_S8_d1_2 : S8x80000x91.ReducesTo [1, 2] S8
  bcast_S_S8 : S_.BroadcastsInDim S8 (![] : Fin 0 → Fin S8.rank)
  reducesTo_S8_S_d0 : S8.ReducesTo [0] S_
  gather_S8x100_S8x80000x1_S8x80000_n_1_0_0_1_2_11_wf : GatherDims.WF S8x100 S8x80000x1 S8x80000 [] [1] [0] [1] [0] 2 ![1, 1]

variable [Facts₀]

def gather_S8x100_S8x80000x1_S8x80000_n_1_0_0_1_2_11 : GatherDims S8x100 S8x80000x1 S8x80000 where
  offsetDims := []
  collapsedSliceDims := [1]
  operandBatchingDims := [0]
  startIndicesBatchingDims := [0]
  startIndexMap := [1]
  indexVectorDim := 2
  sliceSizes := ![1, 1]
  wf := gather_S8x100_S8x80000x1_S8x80000_n_1_0_0_1_2_11_wf

class Facts : Prop extends Facts₀ where

variable [Facts]
-- ==== Proof.Elem.lean ====
/-
  The focal loss of ONE logit, as each of the two programs spells it, over the extended reals.

  For a logit x and a class target t ∈ {0, 1}, with p = 1 / (1 + e^(-x)) and
  base = max(x, 0) + log(1 + e^(-|x|)):

    * one spelling selects between two closed forms, ¼ · (base − x) · (1 − p) · (1 − p) for t = 1 and
      ¾ · base · p · p for t = 0, and multiplies by a 0/1 validity factor;
    * the other computes ce = (max(x, 0) − x·t) + log(1 + e^(-|x|)), p_t = p·t + (1 − p)·(1 − t),
      α_t = ¼·t + ¾·(1 − t), and α_t · ce · (1 − p_t)^2, times the validity factor.

  For a FINITE x they are the same real number: at t = 1, p_t = p and α_t = ¼; at t = 0, p_t = 1 − p, so
  1 − p_t = p, and α_t = ¾; a real to the power 2 is its square.  Finiteness is used: x · 0 = 0 and the
  cancellations need x to be a real number.

  The two programs also encode "which class is the target" differently.  One carries, per anchor, the
  matched label when the match index is ≥ 0, and otherwise −1 (background) or −2 (ignored), and compares
  the class number with that code; validity is "code ≠ −2".  The other compares the class number with the
  matched label under the condition "match index ≥ 0"; validity is "match index ≠ −2".  A class number is
  in [0, 91), never −1 or −2, so the two targets agree; the two validities agree provided a matched label
  is itself never −2.
-/
import Idealize.ShloMosaic.PureOps.Ideal
import Idealize.ShloMosaic.PureOps.Ideal.Laws

noncomputable section

namespace Cert.Focal

open Idealize.ShloMosaic

/-- The code of an anchor: its matched label `cls` when the match index `mi` is ≥ 0 (signed), else −1 when
    `mi ≠ −2` and −2 when `mi = −2`. -/
def enc (cls mi : BitVec 32) : BitVec 32 :=
  Scalar.select (IntOp.cmpi .sge mi 0#32) cls
    (Scalar.select (IntOp.cmpi .ne mi 4294967294#32) 4294967295#32 4294967294#32)

/-- max(x, 0) + log(1 + e^(0 − |x|)). -/
def base (x : Ideal .f32) : Ideal .f32 :=
  FloatOps.addf (FloatOps.maximumf x (FloatOps.ofBits .f32 0x00000000#32))
    (FloatOps.log1p (FloatOps.exp (FloatOps.subf (FloatOps.ofBits .f32 0x00000000#32) (FloatOps.absf x))))

/-- The selecting spelling: `s` chooses the closed form, `vb` is the validity bit. -/
def lossSel (x : Ideal .f32) (s vb : BitVec 1) : Ideal .f32 :=
  FloatOps.mulf
    (Scalar.select s
      (FloatOps.mulf
        (FloatOps.mulf (FloatOps.mulf (FloatOps.ofBits .f32 0x3E800000#32) (FloatOps.subf (base x) x))
          (FloatOps.subf (FloatOps.ofBits .f32 0x3F800000#32) (FloatOps.logistic x)))
        (FloatOps.subf (FloatOps.ofBits .f32 0x3F800000#32) (FloatOps.logistic x)))
      (FloatOps.mulf (FloatOps.mulf (FloatOps.mulf (FloatOps.ofBits .f32 0x3F400000#32) (base x)) (FloatOps.logistic x))
        (FloatOps.logistic x)))
    (FloatOps.sitofp .f32 (vb.setWidth 32))

/-- 1 / (1 + e^(−x)), spelled with a quotient. -/
def sig (x : Ideal .f32) : Ideal .f32 :=
  FloatOps.hostDivf (FloatOps.ofBits .f32 0x3F800000#32)
    (FloatOps.addf (FloatOps.ofBits .f32 0x3F800000#32) (FloatOps.hostUnary .exp (FloatOps.hostNegf x)))

/-- The arithmetic spelling: `tb` is the target bit, `vb` the validity bit. -/
def lossArith (x : Ideal .f32) (tb vb : BitVec 1) : Ideal .f32 :=
  FloatOps.mulf
    (FloatOps.mulf
      (FloatOps.mulf
        (FloatOps.addf (FloatOps.mulf (FloatOps.ofBits .f32 0x3E800000#32) (FloatOps.uitofp .f32 tb))
          (FloatOps.mulf (FloatOps.ofBits .f32 0x3F400000#32)
            (FloatOps.subf (FloatOps.ofBits .f32 0x3F800000#32) (FloatOps.uitofp .f32 tb))))
        (FloatOps.addf
          (FloatOps.subf (FloatOps.maximumf x (FloatOps.ofBits .f32 0x00000000#32)) (FloatOps.mulf x (FloatOps.uitofp .f32 tb)))
          (FloatOps.hostUnary .log1p (FloatOps.hostUnary .exp (FloatOps.hostNegf (FloatOps.hostAbsf x))))))
      (FloatOps.hostPowf
        (FloatOps.subf (FloatOps.ofBits .f32 0x3F800000#32)
          (FloatOps.addf (FloatOps.mulf (sig x) (FloatOps.uitofp .f32 tb))
            (FloatOps.mulf (FloatOps.subf (FloatOps.ofBits .f32 0x3F800000#32) (sig x))
              (FloatOps.subf (FloatOps.ofBits .f32 0x3F800000#32) (FloatOps.uitofp .f32 tb)))))
        (FloatOps.ofBits .f32 0x40000000#32)))
    (FloatOps.uitofp .f32 vb)

end Cert.Focal

end
-- ==== Proof.HostPrelude.lean ====
/-
  The host code in front of the kernel launch, as functions of the arguments.

  Before the launch the program computes, per anchor, ONE integer code: with i the anchor's match index,
  the label at index max(i, 0) of the image's label row when i ≥ 0 (a gather guarded by an in-range test, with the fill
  word −2³¹ outside [0, 99]), and otherwise −1 when i ≠ −2 and −2 when i = −2.  The code array is what the kernel's second
  window reads; the mask "i ≥ 0" is read again after the launch, to count the foreground anchors.

  Both facts are read off the program's operation lists.  The gather and the guard's reduction are kept folded: nothing
  here depends on what they compute, only on where their results go.
-/
import proofs.«177885_j12893491822713_2_alg».proof.Proof.Gen.KernelIdeal.Frame
import proofs.«177885_j12893491822713_2_alg».proof.Proof.Elem
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Acc

open Cert.KernelIdeal Cert.KernelIdeal.Gen

variable (m : (ℓ : Loc nD τ sig) → Buf (Elt Ideal) ℓ)

/-! ## The integer prelude: one code per anchor -/

/-- The match index clipped below at 0. -/
def clipped (x2 : IVec S8x80000 32) : IVec S8x80000 32 :=
  maxsi (broadcastInDim S8x80000 ![] bcast_S_S8x80000 (id (constantI S_ 32 0#32))) x2

/-- The clipped index as the gather's [8, 80000, 1] index operand (a negative one would wrap by 100; a clipped one is
    not negative). -/
def wrapped (x2 : IVec S8x80000 32) : IVec S8x80000x1 32 :=
  shapeCast S8x80000x1
    (select (cmpi .slt (clipped x2) (broadcastInDim S8x80000 ![] bcast_S_S8x80000 (constantI S_ 32 0#32)))
      (addi (clipped x2) (broadcastInDim S8x80000 ![] bcast_S_S8x80000 (constantI S_ 32 100#32))) (clipped x2))
    shapeCasts_S8x80000_S8x80000x1

/-- "The index is inside [0, 99]". -/
def inRange (x2 : IVec S8x80000 32) : IVec S8x80000 1 :=
  Host.reduce IntOp.andi
    (andi (cmpi .sge (wrapped x2) (broadcastInDim S8x80000x1 ![] bcast_S_S8x80000x1 (constantI S_ 32 0#32)))
      (cmpi .sle (wrapped x2)
        (broadcastInDim S8x80000x1 ![0, 1, 2] bcast_S1x1x1_S8x80000x1_0_1_2
          (broadcastInDim S1x1x1 ![2] bcast_S1_S1x1x1_2 (constantI S1 32 99#32)))))
    (constantI S_ 1 1#1) reducesTo_S8x80000x1_S8x80000_d2 h_S_

/-- The matched label of every anchor: the label at the clipped index inside [0, 99], the fill word −2³¹ outside. -/
def matchedK (x1 : IVec S8x100 32) (x2 : IVec S8x80000 32) : IVec S8x80000 32 :=
  select (inRange x2) (Host.gather gather_S8x100_S8x80000x1_S8x80000_n_1_0_0_1_2_11 x1 (wrapped x2))
    (broadcastInDim S8x80000 ![] bcast_S_S8x80000 (constantI S_ 32 2147483648#32))

/-- "Match index ≥ 0". -/
def fgMask (x2 : IVec S8x80000 32) : IVec S8x80000 1 :=
  cmpi .sge x2 (broadcastInDim S8x80000 ![] bcast_S_S8x80000 (constantI S_ 32 0#32))

/-- The [8, 80000, 1] array of anchor codes the region reads: the matched label where the match index is ≥ 0, else −1
    where it is not −2, else −2. -/
def codeArr (x1 : IVec S8x100 32) (x2 : IVec S8x80000 32) : IVec S8x80000x1 32 :=
  broadcastInDim S8x80000x1 ![0, 1] bcast_S8x80000_S8x80000x1_0_1
    (select (fgMask x2) (matchedK x1 x2)
      (select (cmpi .ne x2 (broadcastInDim S8x80000 ![] bcast_S_S8x80000 (constantI S_ 32 4294967294#32)))
        (broadcastInDim S8x80000 ![] bcast_S_S8x80000 (constantI S_ 32 4294967295#32))
        (broadcastInDim S8x80000 ![] bcast_S_S8x80000 (constantI S_ 32 4294967294#32))))

/-- The foreground mask as the region's exit finds it: a function of the match indices alone. -/
theorem V_v1 (c : Dev nD) : V m c main_v1 = fgMask (m ((c : Thread nD τ).loc main_arg2)) := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

attribute [local irreducible] Host.reduce Host.gather in
set_option maxHeartbeats 4000000 in
/-- The code array as the region finds it: that function of the labels and the match indices. -/
theorem V_v8 (c : Dev nD) :
    V m c main_v8 = codeArr (m ((c : Thread nD τ).loc main_arg1)) (m ((c : Thread nD τ).loc main_arg2)) := by
  dsimp only [V, V0]
  simp only [hostOps0, hostOps0_1, hostOps0_2, hostOps0_3, hostOps0_4, hostOps0_5, hostOps0_6, List.flatten_cons,
    List.flatten_nil, List.append_nil, List.cons_append, List.nil_append]
  after_results_simp
  rfl

end Cert.KernelIdeal.Acc

end
-- ==== Proof.Pieces.lean ====
/-
  What one grid point leaves behind, case by case.

  The body keeps a [1, 128] accumulator in a scratch buffer that lives across the sixteen tiles of one image.
  At every point it stores "what the accumulator held + this tile's total, splat over the lanes"; at the first tile of
  an image it first stores zeros, so what it then reads back is zero; at the last tile it also copies the accumulator
  into the image's [1, 1, 128] output block.  Every load and store covers its whole buffer, so each buffer ends at
  the payload of the last store into it, with every load replaced by what the buffer held at that moment:

    first tile    scratch = zeros + total of (logits block, code block)
    middle tile   scratch = previous scratch + total
    last tile     scratch = previous scratch + total,  output block = that scratch re-laid as [1, 1, 128].

  The lemmas hold for any float values: no arithmetic is opened here.
-/
import proofs.«177885_j12893491822713_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of an image: the accumulator restarts from zero and receives the tile's total. -/
theorem scratch_A (c : Dev nD) (i : grid0.Coords) (arg2 : Memref sig .tc .vmem S1x5000x91 .f32) (harg2 : arg2.IsWhole) (arg3 : Memref sig .tc .vmem S1x5000x1 .i32) (harg3 : arg3.IsWhole) (arg4 : Memref sig .tc .vmem S1x1x128 .f32) (harg4 : arg4.IsWhole) (arg5 : Memref sig .tc .vmem S1x128 .f32) (harg5 : arg5.IsWhole) (hc0 : cond0_0 i) (hc1 : ¬cond0_1 i)
    (x0 : Vec F S1x5000x91 .f32) (x1 : Vec F S1x5000x1 .i32) :
    sout0_A_0 c i arg2 harg2 arg3 harg3 arg4 harg4 arg5 harg5 hc0 hc1 x0 x1 = k0_pay1 (k0_pay4 x0 x1) (k0_pay3 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x128) hz2, View.readCov_unit_zero (S := S1x128) _ hz2]
  simp only [View.readAt_eq_ld, harg2.read_unread, harg3.read_unread, View.ld_unit_zero (S := S1x5000x91) hz3, View.ld_unit_zero (S := S1x5000x1) hz3]

/-- A middle tile: the accumulator receives the tile's total on top of what the tile before left. -/
theorem scratch_B (c : Dev nD) (i : grid0.Coords) (arg2 : Memref sig .tc .vmem S1x5000x91 .f32) (harg2 : arg2.IsWhole) (arg3 : Memref sig .tc .vmem S1x5000x1 .i32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : ¬cond0_1 i)
    (x0 : Vec F S1x5000x91 .f32) (x1 : Vec F S1x5000x1 .i32) (xs0 : Vec F S1x128 .f32) :
    sout0_B_0 c i arg2 harg2 arg3 harg3 arg4 harg4 arg5 harg5 hc0 hc1 x0 x1 xs0 = k0_pay1 (k0_pay4 x0 x1) xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S1x5000x91) hz3, View.ld_unit_zero (S := S1x5000x1) hz3, View.ld_unit_zero (S := S1x128) hz2]

/-- The last tile of an image: the same accumulation … -/
theorem scratch_C (c : Dev nD) (i : grid0.Coords) (arg2 : Memref sig .tc .vmem S1x5000x91 .f32) (harg2 : arg2.IsWhole) (arg3 : Memref sig .tc .vmem S1x5000x1 .i32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i)
    (x0 : Vec F S1x5000x91 .f32) (x1 : Vec F S1x5000x1 .i32) (xs0 : Vec F S1x128 .f32) :
    sout0_C_0 c i arg2 harg2 arg3 harg3 arg4 harg4 arg5 harg5 hc0 hc1 x0 x1 xs0 = k0_pay1 (k0_pay4 x0 x1) xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S1x5000x91) hz3, View.ld_unit_zero (S := S1x5000x1) hz3, View.ld_unit_zero (S := S1x128) hz2]

/-- … and the output block receives the accumulator's final contents, re-laid as [1, 1, 128]. -/
theorem out_C (c : Dev nD) (i : grid0.Coords) (arg2 : Memref sig .tc .vmem S1x5000x91 .f32) (harg2 : arg2.IsWhole) (arg3 : Memref sig .tc .vmem S1x5000x1 .i32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i)
    (x0 : Vec F S1x5000x91 .f32) (x1 : Vec F S1x5000x1 .i32) (xs0 : Vec F S1x128 .f32) :
    out0_C_2 c i arg2 harg2 arg3 harg3 arg4 harg4 arg5 harg5 hc0 hc1 x0 x1 xs0 = k0_pay2 (k0_pay1 (k0_pay4 x0 x1) xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S1x128) _ hz2]
  simp only [View.readAt_eq_ld, harg2.read_unread, harg3.read_unread, harg5.read_unread, View.ld_unit_zero (S := S1x5000x91) hz3, View.ld_unit_zero (S := S1x5000x1) hz3, View.ld_unit_zero (S := S1x128) hz2]

end Cert.KernelIdeal.Acc

end
-- ==== Proof.LibLayout.lean ====
/- Layout operations of "keepdims" column vectors and doubly unit-led blocks, read at an index built from explicit
   coordinates. Each lemma says which element of the operand an element of the result is. -/
import Idealize.ShloMosaic.Lib.Pipeline.Value
import Idealize.ShloMosaic.Lib.ValueIdx

noncomputable section

namespace Cert.LibLayout

open Idealize.ShloMosaic Idealize.ShloMosaic.ValueIdx

variable {α : Type}

/-- A [1, 1, a, b] block viewed as [a, b]: element (p, q) is element (0, 0, p, q). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- An [a, b] value stored as a [1, 1, a, b] block: element (0, 0, p, q) is element (p, q). -/
theorem shapeCast_ab_11ab_apply {a b : ℕ} (x : (⟨2, ![a, b]⟩ : Shape).Idx → α)
    (h : (⟨2, ![a, b]⟩ : Shape).ShapeCasts ⟨4, ![1, 1, a, b]⟩) (p : Fin a) (q : Fin b) :
    shapeCast ⟨4, ![1, 1, a, b]⟩ x h (ix4 (0 : Fin 1) (0 : Fin 1) p q) = x (ix2 p q) :=
  shapeCast_apply x h _ _ (by
    rw [Shape.rowMajor_val_four, Shape.rowMajor_val_two]
    show p.val * b + q.val = ((0 * 1 + 0) * a + p.val) * b + q.val
    simp only [Nat.zero_mul, Nat.zero_add])

/-- A vector [a] viewed as a column [a, 1]: element (p, 0) is element p. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_one, Shape.rowMajor_val_two]
    show p.val = p.val * 1 + 0
    simp only [Nat.mul_one, Nat.add_zero])

/-- A column [a, 1] broadcast along its rows to [a, b]: element (p, q) is element (p, 0). -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) :=
  broadcastTo_apply x h _ _ (fun c => by
    match c with
    | ⟨0, _⟩ =>
      show p.val = if a = 1 then 0 else p.val
      by_cases ha : a = 1
      · rw [if_pos ha]; have := p.isLt; omega
      · rw [if_neg ha]
    | ⟨1, _⟩ =>
      show 0 = if (1 : ℕ) = 1 then 0 else q.val
      rw [if_pos rfl])

end Cert.LibLayout

end
-- ==== Proof.Payload.lean ====
/-
  The body's arithmetic, read at an index, over the extended reals.

  A tile is a [5000, 91] block of logits and a [5000, 1] column of anchor codes.  The body computes, at row r and
  lane c, the loss of the logit there (the selecting spelling of Elem: the selecting bit is "lane number = code of
  row r", the validity bit "code of row r ≠ −2"), sums each row over its 91 lanes, sums that column over its 5000
  rows, and adds the scalar to every lane of the accumulator.  At the extended reals a lane sum and a sublane sum
  are plain finite sums (the zero they start from adds nothing), so

      accumulator'(lane) = accumulator(lane) + Σ_r Σ_c loss(r, c).

  The layout operations in between only re-index: a [1, a, b] block viewed as [a, b], a vector [a] viewed as a
  column [a, 1], a column broadcast along the lanes, the accumulator [1, 128] stored as a [1, 1, 128] block.
-/
import proofs.«177885_j12893491822713_2_alg».proof.Proof.Gen.KernelIdeal.Skeleton
import proofs.«177885_j12893491822713_2_alg».proof.Proof.Elem
import proofs.«177885_j12893491822713_2_alg».proof.Proof.LibLayout
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Acc

open Cert.KernelIdeal Cert.KernelIdeal.Gen

/-- The index the lane sum of row `r` visits at lane `c` is (r, c). -/
theorem lift_row (r : Fin 5000) (c : Fin 91) :
    reduces_S5000x91_S5000.lift (ix1 r) c = ix2 r c :=
  funext fun a => Fin.ext (by match a with | ⟨0, _⟩ => rfl | ⟨1, _⟩ => rfl)

/-- The index the sublane sum of the column of row sums visits at row `r` is (r, 0). -/
theorem lift_col (r : Fin 5000) :
    reduces_S5000x1_S1.lift (ix1 (0 : Fin 1)) r = ix2 r (0 : Fin 1) :=
  funext fun a => Fin.ext (by match a with | ⟨0, _⟩ => rfl | ⟨1, _⟩ => rfl)

theorem cons_ix2 {n0 n1 : ℕ} (p : Fin n0) (q : Fin n1) :
    (Fin.cons (⟨0, Nat.one_pos⟩ : Fin 1) (ix2 p q) : (⟨3, ![1, n0, n1]⟩ : Shape).Idx) = ix3 (0 : Fin 1) p q :=
  funext fun a => by match a with | ⟨0, _⟩ => rfl | ⟨1, _⟩ => rfl | ⟨2, _⟩ => rfl

/-- The loss of the logit at row `r`, lane `c` of a tile, read off the body's pointwise term: the logits `v4` enter at
    (r, c); the anchor's code `v6`, a column, enters at (r, 0) — broadcast along the lanes against the lane number for the
    selecting bit, and compared with −2 for the validity factor. -/
theorem body_at (v4 : FVec Ideal S5000x91 .f32) (v6 : IVec S5000x1 32) (r : Fin 5000) (c : Fin 91) :
    mulf
      (select
        (cmpi .eq (iota .tc S5000x91 32 [1] iota_S5000x91_d1_w32) (broadcastTo S5000x91 v6 broadcasts_S5000x1_S5000x91))
        (mulf
          (mulf
            (mulf (broadcast S5000x91 (FloatOps.ofBits (F := Ideal) .f32 0x3E800000#32))
              (subf
                (addf (maximumf v4 (broadcast S5000x91 (FloatOps.ofBits (F := Ideal) .f32 0x00000000#32)))
                  (log1p (exp (subf (broadcast S5000x91 (FloatOps.ofBits (F := Ideal) .f32 0x00000000#32)) (absf v4)))))
                v4))
            (subf (broadcast S5000x91 (FloatOps.ofBits (F := Ideal) .f32 0x3F800000#32)) (logistic v4)))
          (subf (broadcast S5000x91 (FloatOps.ofBits (F := Ideal) .f32 0x3F800000#32)) (logistic v4)))
        (mulf
          (mulf
            (mulf (broadcast S5000x91 (FloatOps.ofBits (F := Ideal) .f32 0x3F400000#32))
              (addf (maximumf v4 (broadcast S5000x91 (FloatOps.ofBits (F := Ideal) .f32 0x00000000#32)))
                (log1p (exp (subf (broadcast S5000x91 (FloatOps.ofBits (F := Ideal) .f32 0x00000000#32)) (absf v4))))))
            (logistic v4))
          (logistic v4)))
      (broadcastTo S5000x91
        (sitofp .f32 (extui 32 (cmpi .ne v6 (broadcast S5000x1 4294967294#32)) natLt_1_32))
        broadcasts_S5000x1_S5000x91)
      (ix2 r c)
    = Cert.Focal.lossSel (v4 (ix2 r c)) (IntOp.cmpi .eq (BitVec.ofNat 32 c.val) (v6 (ix2 r (0 : Fin 1))))
        (IntOp.cmpi .ne (v6 (ix2 r (0 : Fin 1))) 4294967294#32) := by
  have e7 : iota .tc S5000x91 32 [1] iota_S5000x91_d1_w32 (ix2 r c) = BitVec.ofNat 32 c.val :=
    iota_single_apply .tc S5000x91 32 1 iota_S5000x91_d1_w32 (ix2 r c)
  have e8 : broadcastTo S5000x91 v6 broadcasts_S5000x1_S5000x91 (ix2 r c) = v6 (ix2 r (0 : Fin 1)) :=
    Cert.LibLayout.broadcastTo_a1_ab_apply v6 broadcasts_S5000x1_S5000x91 r c
  have e37 : broadcastTo S5000x91
        (sitofp (F := Ideal) .f32 (extui 32 (cmpi .ne v6 (broadcast S5000x1 4294967294#32)) natLt_1_32))
        broadcasts_S5000x1_S5000x91 (ix2 r c)
      = FloatOps.sitofp .f32 ((IntOp.cmpi .ne (v6 (ix2 r (0 : Fin 1))) 4294967294#32).setWidth 32) :=
    Cert.LibLayout.broadcastTo_a1_ab_apply _ broadcasts_S5000x1_S5000x91 r c
  unfold Cert.Focal.lossSel Cert.Focal.base
  show FloatOps.mulf
      (Scalar.select
        (IntOp.cmpi .eq (iota .tc S5000x91 32 [1] iota_S5000x91_d1_w32 (ix2 r c))
          (broadcastTo S5000x91 v6 broadcasts_S5000x1_S5000x91 (ix2 r c))) _ _)
      (broadcastTo S5000x91
        (sitofp (F := Ideal) .f32 (extui 32 (cmpi .ne v6 (broadcast S5000x1 4294967294#32)) natLt_1_32))
        broadcasts_S5000x1_S5000x91 (ix2 r c)) = _
  rw [e7, e8, e37]
  rfl

/-- The tile's column of row sums: row `r` holds the sum over the 91 lanes of the losses of row `r`. -/
theorem pay4_apply (x0 : Vec Ideal S1x5000x91 .f32) (x1 : Vec Ideal S1x5000x1 .i32) (r : Fin 5000) :
    k0_pay4 (F := Ideal) x0 x1 (ix2 r (0 : Fin 1))
      = ∑ c : Fin 91, Cert.Focal.lossSel (x0 (ix3 (0 : Fin 1) r c))
          (IntOp.cmpi .eq (BitVec.ofNat 32 c.val) (x1 (ix3 (0 : Fin 1) r (0 : Fin 1))))
          (IntOp.cmpi .ne (x1 (ix3 (0 : Fin 1) r (0 : Fin 1))) 4294967294#32) := by
  unfold k0_pay4
  refine (Cert.LibLayout.shapeCast_a_a1_apply _ _ r).trans ?_
  refine (Ideal.multiReduction_add_single _ 0x00000000#32 reduces_S5000x91_S5000 (.inl rfl) rfl (ix1 r)).trans ?_
  show ∑ c : Fin 91, _ = _
  refine Finset.sum_congr rfl fun c _ => ?_
  rw [lift_row r c]
  refine (body_at _ _ r c).trans ?_
  have e4 : shapeCast S5000x91 x0 shapeCasts_S1x5000x91_S5000x91 (ix2 r c) = x0 (ix3 (0 : Fin 1) r c) :=
    (shapeCast_dropUnit_apply ![5000, 91] x0 shapeCasts_S1x5000x91_S5000x91 (ix2 r c)).trans (congrArg x0 (cons_ix2 r c))
  have e6 : shapeCast S5000x1 x1 shapeCasts_S1x5000x1_S5000x1 (ix2 r (0 : Fin 1)) = x1 (ix3 (0 : Fin 1) r (0 : Fin 1)) :=
    (shapeCast_dropUnit_apply ![5000, 1] x1 shapeCasts_S1x5000x1_S5000x1 (ix2 r (0 : Fin 1))).trans (congrArg x1 (cons_ix2 r 0))
  rw [e4, e6]

/-- The total of a tile: the sum over its 5000 rows and 91 lanes of the losses, from the logits block `x0` and the
    code block `x1`. -/
def tileTotal (x0 : Vec Ideal S1x5000x91 .f32) (x1 : Vec Ideal S1x5000x1 .i32) : EReal :=
  ∑ r : Fin 5000, ∑ c : Fin 91, Cert.Focal.lossSel (x0 (ix3 (0 : Fin 1) r c))
    (IntOp.cmpi .eq (BitVec.ofNat 32 c.val) (x1 (ix3 (0 : Fin 1) r (0 : Fin 1))))
    (IntOp.cmpi .ne (x1 (ix3 (0 : Fin 1) r (0 : Fin 1))) 4294967294#32)

/-- The accumulator's update: every lane receives what it held plus the tile's total (the column of row sums summed
    over the rows, extracted as a scalar and splat over the 128 lanes). -/
theorem pay1_apply (x0 : Vec Ideal S1x5000x91 .f32) (x1 : Vec Ideal S1x5000x1 .i32) (xs : Vec Ideal S1x128 .f32)
    (j : S1x128.Idx) :
    k0_pay1 (F := Ideal) (k0_pay4 x0 x1) xs j = xs j + tileTotal x0 x1 := by
  unfold k0_pay1
  rw [shapeCast_self]
  show xs j + extractAt ![0, 0] (shapeCast S1x1 _ shapeCasts_S1_S1x1) inpos_S1x1_p0_0 = _
  congr 1
  unfold extractAt
  refine (shapeCast_addUnit_apply ![1] _ shapeCasts_S1_S1x1 _).trans ?_
  refine (Ideal.multiReduction_add_single _ 0x00000000#32 reduces_S5000x1_S1 (.inl rfl) rfl _).trans ?_
  show ∑ r : Fin 5000, _ = _
  unfold tileTotal
  refine Finset.sum_congr rfl fun r _ => ?_
  refine Eq.trans ?_ (pay4_apply x0 x1 r)
  exact congrArg (k0_pay4 (F := Ideal) x0 x1) (funext fun a => Fin.ext (by match a with | ⟨0, _⟩ => rfl | ⟨1, _⟩ => rfl))

/-- The block stored at the first tile of an image is zero in every lane. -/
theorem pay3_apply (j : S1x128.Idx) : k0_pay3 (F := Ideal) j = 0 := by
  unfold k0_pay3
  rw [shapeCast_self]
  exact Ideal.ofBits_zero_f32

/-- The output block is the accumulator, lane for lane. -/
theorem pay2_apply (v : Vec Ideal S1x128 .f32) (l : Fin 128) :
    k0_pay2 (F := Ideal) v (ix3 (0 : Fin 1) (0 : Fin 1) l) = v (ix2 (0 : Fin 1) l) := by
  unfold k0_pay2
  refine (shapeCast_apply _ shapeCasts_S128_S1x1x128 (ix3 (0 : Fin 1) (0 : Fin 1) l) (ix1 l) (by
    rw [Shape.rowMajor_val_three, Shape.rowMajor_val_one]
    show l.val = (0 * 1 + 0) * 128 + l.val
    omega)).trans ?_
  exact shapeCast_apply _ shapeCasts_S1x128_S128 (ix1 l) (ix2 (0 : Fin 1) l) (by
    rw [Shape.rowMajor_val_one, Shape.rowMajor_val_two]
    show 0 * 128 + l.val = l.val
    omega)

end Cert.KernelIdeal.Acc

end
-- ==== Proof.Accum.lean ====
/-
  The accumulator across the grid.

  The grid has 128 points: point n = 16·b + a is tile a of image b.  The generated frame states what the output's
  staging block and the scratch accumulator hold after point n by recursion on n, case by case (first tile of an
  image, a middle tile, the last tile).  Over the payloads that recursion reads: the accumulator restarts from zero
  when n ≡ 0 (mod 16) and otherwise continues from what point n − 1 left, and in both cases receives the total of the
  tile staged at n; at n ≡ 15 (mod 16) the output block receives the accumulator.

  With the payloads read at the extended reals (Payload) every lane of the accumulator after point n is ONE number,
  accN n, given by the same recursion on numbers; by induction inside an image, accN (16·b + a) is the sum of the
  totals of tiles 0 … a of image b.  Only 0 + x = x and the definition of a finite sum are used: the extended reals
  add associatively, and no finiteness is needed here.
-/
import proofs.«177885_j12893491822713_2_alg».proof.Proof.Pieces
import proofs.«177885_j12893491822713_2_alg».proof.Proof.Payload

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ)

/-! ## What each kind of point leaves, over the payloads -/

theorem snd_A (c : Dev nD) (t : Fin cfg0.N) (h0 : t.val % 16 = 0) (h1 : ¬t.val % 16 = 15) :
    (outsAt0 m c t.val t.isLt).2 = k0_pay1 (k0_pay4 (iblk m c 0 t) (iblk m c 1 t)) (k0_pay3 (F := Ideal)) := by
  rw [outsAt0_A m c t h0 h1]
  exact scratch_A (F := Ideal) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

theorem snd_B (c : Dev nD) (t : Fin cfg0.N) (h0 : ¬t.val % 16 = 0) (h1 : ¬t.val % 16 = 15) :
    (outsAt0 m c t.val t.isLt).2 = k0_pay1 (k0_pay4 (iblk m c 0 t) (iblk m c 1 t))
      (outsAt0 m c (t.val - 1) (Nat.lt_of_le_of_lt (Nat.sub_le _ _) t.isLt)).2 := by
  rw [outsAt0_B m c t h0 h1]
  exact scratch_B (F := Ideal) c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

theorem snd_C (c : Dev nD) (t : Fin cfg0.N) (h0 : ¬t.val % 16 = 0) (h1 : t.val % 16 = 15) :
    (outsAt0 m c t.val t.isLt).2 = k0_pay1 (k0_pay4 (iblk m c 0 t) (iblk m c 1 t))
      (outsAt0 m c (t.val - 1) (Nat.lt_of_le_of_lt (Nat.sub_le _ _) t.isLt)).2 := by
  rw [outsAt0_C m c t h0 h1]
  exact scratch_C (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

theorem fst_C (c : Dev nD) (t : Fin cfg0.N) (h0 : ¬t.val % 16 = 0) (h1 : t.val % 16 = 15) :
    (outsAt0 m c t.val t.isLt).1 = k0_pay2 (k0_pay1 (k0_pay4 (iblk m c 0 t) (iblk m c 1 t))
      (outsAt0 m c (t.val - 1) (Nat.lt_of_le_of_lt (Nat.sub_le _ _) t.isLt)).2) := by
  rw [outsAt0_C m c t h0 h1]
  exact out_C (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-! ## The running total -/

/-- The total of the tile staged at point `n` (zero past the grid). -/
def tileN (c : Dev nD) (n : ℕ) : EReal :=
  if h : n < cfg0.N then tileTotal (iblk m c 0 ⟨n, h⟩) (iblk m c 1 ⟨n, h⟩) else 0

/-- What every lane of the accumulator holds after point `n`: it restarts from zero at the first tile of an image
    (n ≡ 0 mod 16) and otherwise adds the tile's total to what the point before left. -/
def accN (c : Dev nD) : ℕ → EReal
  | 0 => 0 + tileN m c 0
  | n + 1 => if (n + 1) % 16 = 0 then 0 + tileN m c (n + 1) else accN c n + tileN m c (n + 1)

theorem accN_zero (c : Dev nD) : accN m c 0 = 0 + tileN m c 0 := rfl
theorem accN_succ (c : Dev nD) (n : ℕ) :
    accN m c (n + 1) = if (n + 1) % 16 = 0 then 0 + tileN m c (n + 1) else accN m c n + tileN m c (n + 1) := rfl

theorem tileN_of_lt (c : Dev nD) (n : ℕ) (h : n < cfg0.N) :
    tileN m c n = tileTotal (iblk m c 0 ⟨n, h⟩) (iblk m c 1 ⟨n, h⟩) := dif_pos h

/-- After point `n` every lane of the scratch accumulator holds the running total: by induction on the point. -/
theorem scratch_eq (c : Dev nD) : ∀ (n : ℕ) (h : n < cfg0.N), (outsAt0 m c n h).2 = fun _ => accN m c n
  | 0, h => by
    refine (snd_A m c ⟨0, h⟩ rfl (by show ¬(0 : ℕ) % 16 = 15; decide)).trans (funext fun j => ?_)
    rw [pay1_apply, pay3_apply, accN_zero, tileN_of_lt m c 0 h]
  | n + 1, h => by
    by_cases h0 : (n + 1) % 16 = 0
    · have h1 : ¬(n + 1) % 16 = 15 := by omega
      refine (snd_A m c ⟨n + 1, h⟩ h0 h1).trans (funext fun j => ?_)
      rw [pay1_apply, pay3_apply, accN_succ, if_pos h0, tileN_of_lt m c (n + 1) h]
    · have ih := scratch_eq c n (Nat.lt_of_succ_lt h)
      by_cases h1 : (n + 1) % 16 = 15
      · refine (snd_C m c ⟨n + 1, h⟩ h0 h1).trans (funext fun j => ?_)
        rw [pay1_apply]
        show (outsAt0 m c n _).2 j + _ = _
        rw [ih, accN_succ, if_neg h0, tileN_of_lt m c (n + 1) h]
      · refine (snd_B m c ⟨n + 1, h⟩ h0 h1).trans (funext fun j => ?_)
        rw [pay1_apply]
        show (outsAt0 m c n _).2 j + _ = _
        rw [ih, accN_succ, if_neg h0, tileN_of_lt m c (n + 1) h]

/-- At the last tile of an image the output block receives the running total, in every lane. -/
theorem out_eq (c : Dev nD) (t : Fin cfg0.N) (h1 : t.val % 16 = 15) (l : Fin 128) :
    (outsAt0 m c t.val t.isLt).1 (ix3 (0 : Fin 1) (0 : Fin 1) l) = accN m c t.val := by
  have h0 : ¬t.val % 16 = 0 := by omega
  rw [fst_C m c t h0 h1, pay2_apply, ← snd_C m c t h0 h1, scratch_eq m c t.val t.isLt]

/-- Inside an image the running total after tile `a` is the sum of the totals of tiles 0 … a: the restart at tile 0 makes
    the sum start there, and each later tile adds its own total. -/
theorem accN_run (c : Dev nD) (b : ℕ) : ∀ a : ℕ, a < 16 →
    accN m c (16 * b + a) = ∑ k ∈ Finset.range (a + 1), tileN m c (16 * b + k)
  | 0, _ => by
    rw [Finset.sum_range_one, Nat.add_zero]
    cases b with
    | zero => rw [Nat.mul_zero, accN_zero, zero_add]
    | succ b =>
      rw [show 16 * (b + 1) = (16 * b + 15) + 1 from by omega, accN_succ, if_pos (by omega), zero_add]
  | a + 1, ha => by
    rw [show 16 * b + (a + 1) = (16 * b + a) + 1 from by omega, accN_succ, if_neg (by omega),
      accN_run c b a (by omega), Finset.sum_range_succ (fun k => tileN m c (16 * b + k)) (a + 1)]
    rfl

/-- So after the last tile of image `b` it is the sum of the sixteen tile totals of that image. -/
theorem accN_last (c : Dev nD) (b : ℕ) :
    accN m c (16 * b + 15) = ∑ a : Fin 16, tileN m c (16 * b + a.val) := by
  rw [accN_run m c b 15 (by decide), Finset.sum_range]

end Cert.KernelIdeal.Acc

end
-- ==== Proof.Tiles.lean ====
/-
  The 80000 anchors of an image are read in 16 consecutive tiles of 5000: row r of tile a is anchor 5000·a + r.
-/
import Mathlib.Data.Fin.Basic
import Mathlib.Tactic.Linarith

namespace Cert.Focal

/-- Row `r` of tile `a`, as an anchor number. -/
def anchor (a : Fin 16) (r : Fin 5000) : Fin 80000 :=
  ⟨5000 * a.val + r.val, by have := a.isLt; have := r.isLt; omega⟩

@[simp] theorem anchor_val (a : Fin 16) (r : Fin 5000) : (anchor a r).val = 5000 * a.val + r.val := rfl

end Cert.Focal
-- ==== Proof.Final.lean ====
/-
  From the output's blocks to its array, and the tile totals over the whole arrays.

  At point t = 16·b + a the pipeline stages block (b, a, 0) of the [8, 80000, 91] logits array — rows 5000·a … 5000·a + 4999
  of image b — and block (b, a, 0) of the [8, 80000, 1] code array, and the output window is block (b, 0, 0) of the
  [8, 1, 128] output array.  The output block is written back only at the last tile of an image (t ≡ 15 mod 16), so row b
  of the output array is written exactly once, by point 16·b + 15, and holds what the accumulator held then: the sum of the
  sixteen tile totals of image b.  Every index (b, 0, l) lies in that point's block, so the whole array is determined.

  Reading the staged blocks back as parts of the arrays turns the sixteen tile totals into one sum over the image,
      Σ_{a < 16} Σ_{r < 5000} Σ_{c < 91} loss(b, 5000·a + r, c),
  the anchors visited tile by tile.
-/
import proofs.«177885_j12893491822713_2_alg».proof.Proof.Accum
import proofs.«177885_j12893491822713_2_alg».proof.Proof.Tiles

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ)

/-- The printed index maps, decided over the grid: at point t = 16·b + a the logits block is (b, a, 0), the code
    block (b, a, 0) and the output block (b, 0, 0). -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = t.val % 16 ∧ win0_1.index t (2 : Fin 3) = 0
    ∧ win0_2.index t (0 : Fin 3) = t.val / 16 ∧ win0_2.index t (1 : Fin 3) = 0 ∧ win0_2.index t (2 : Fin 3) = 0 :=
  (by decide +kernel : ∀ t : Fin grid0.N, _)

/-! ## From the output's blocks to its array -/

/-- What the [8, 1, 128] output array ends holding: row b, in every lane, the running total after the last tile of
    image b. -/
def outArr (c : Dev nD) : S8x1x128.Idx → EReal := fun i => accN m c (16 * (i 0).val + 15)

/-- A point that writes the output block back (the last tile of an image) writes block (b, 0, 0) of `outArr`. -/
theorem flushed_eq (c : Dev nD) (t : Fin cfg0.N) (hf : (cfg0.win 2).flush t = true) :
    (dats m 0 c).flushed 2 t = ((cfg0.win 2).blk t).view.read (Elt Ideal) (outArr m c) := by
  have h15 : t.val % 16 = 15 := (flush0_2 t).mp hf
  obtain ⟨-, -, -, -, -, -, e0, e1, e2⟩ := idx_facts t
  show (cfg0.win 2).cut (grid0.coords t) ((dats m 0 c).after 2 t) = _
  rw [after0_2]
  funext y
  rw [View.read_apply]
  have hy0 : (y 0).val < 1 := (y 0).isLt
  have hy1 : (y 1).val < 1 := (y 1).isLt
  have hy : y = ix3 (0 : Fin 1) (0 : Fin 1) (⟨(y 2).val, (y 2).isLt⟩ : Fin 128) :=
    funext fun a => Fin.ext (by
      match a with
      | ⟨0, _⟩ => show (y 0).val = 0; omega
      | ⟨1, _⟩ => show (y 1).val = 0; omega
      | ⟨2, _⟩ => rfl)
  refine (congrArg (outsAt0 m c t.val t.isLt).1 hy).trans ?_
  refine (out_eq m c t h15 _).trans ?_
  unfold outArr
  congr 1
  show t.val = 16 * (win0_2.index t (0 : Fin 3) * 1 + 1 * (y 0).val) + 15
  omega

/-- Every index (b, 0, l) of the output array lies in the block written back at the last tile of image b. -/
theorem cover (c : Dev nD) (i : S8x1x128.Idx) :
    ∃ t : Fin cfg0.N, (cfg0.win 2).flush t = true ∧ i ∈ ((cfg0.win 2).blk t).view.set := by
  have hN : cfg0.N = 128 := N_0
  have hi0 : (i 0).val < 8 := (i 0).isLt
  have hi1 : (i 1).val < 1 := (i 1).isLt
  have hi2 : (i 2).val < 128 := (i 2).isLt
  have ht : 16 * (i 0).val + 15 < cfg0.N := by omega
  obtain ⟨-, -, -, -, -, -, e0, e1, e2⟩ := idx_facts ⟨16 * (i 0).val + 15, ht⟩
  have e0' : win0_2.index ⟨16 * (i 0).val + 15, ht⟩ (0 : Fin 3) = (16 * (i 0).val + 15) / 16 := e0
  refine ⟨⟨16 * (i 0).val + 15, ht⟩, (flush0_2 _).mpr (by show (16 * (i 0).val + 15) % 16 = 15; omega), ?_⟩
  show i ∈ ((View.whole main_v9).slice (win0_2.rect ⟨16 * (i 0).val + 15, ht⟩)).set
  rw [View.set_slice_whole, Rect.mem_set_unit]
  intro a
  match a with
  | ⟨0, _⟩ =>
    show win0_2.index ⟨16 * (i 0).val + 15, ht⟩ (0 : Fin 3) * 1 ≤ (i 0).val
      ∧ (i 0).val < win0_2.index ⟨16 * (i 0).val + 15, ht⟩ (0 : Fin 3) * 1 + 1
    omega
  | ⟨1, _⟩ =>
    show win0_2.index ⟨16 * (i 0).val + 15, ht⟩ (1 : Fin 3) * 1 ≤ (i 1).val
      ∧ (i 1).val < win0_2.index ⟨16 * (i 0).val + 15, ht⟩ (1 : Fin 3) * 1 + 1
    omega
  | ⟨2, _⟩ =>
    show win0_2.index ⟨16 * (i 0).val + 15, ht⟩ (2 : Fin 3) * 128 ≤ (i 2).val
      ∧ (i 2).val < win0_2.index ⟨16 * (i 0).val + 15, ht⟩ (2 : Fin 3) * 128 + 128
    omega

/-- So the output array ends holding `outArr`. -/
theorem final (c : Dev nD) : (dats m 0 c).arrAt 2 cfg0.N = outArr m c :=
  (dats m 0 c).arrAt_eq_of_cover 2 (outArr m c) (flushed_eq m c) (cover c)

/-! ## The tile totals over the whole arrays -/

/-- The sum over image b of the losses of all its anchors and classes, in the selecting spelling, from the logits
    array `X` and the array of anchor codes `E`, the anchors taken tile by tile. -/
def kerSum (X : S8x80000x91.Idx → EReal) (E : S8x80000x1.Idx → BitVec 32) (b : Fin 8) : EReal :=
  ∑ a : Fin 16, ∑ r : Fin 5000, ∑ cc : Fin 91,
    Cert.Focal.lossSel (X (ix3 b (Cert.Focal.anchor a r) cc))
      (IntOp.cmpi .eq (BitVec.ofNat 32 cc.val) (E (ix3 b (Cert.Focal.anchor a r) (0 : Fin 1))))
      (IntOp.cmpi .ne (E (ix3 b (Cert.Focal.anchor a r) (0 : Fin 1))) 4294967294#32)

/-- The logits block staged at point 16·b + a, at (0, r, cc), is the logits array at (b, 5000·a + r, cc). -/
theorem iblk0_apply (c : Dev nD) (b : Fin 8) (a : Fin 16) (h : 16 * b.val + a.val < cfg0.N) (r : Fin 5000) (cc : Fin 91) :
    (iblk m c 0 ⟨16 * b.val + a.val, h⟩ : Vec Ideal S1x5000x91 .f32) (ix3 (0 : Fin 1) r cc)
      = V m c main_arg0 (ix3 b (Cert.Focal.anchor a r) cc) := by
  obtain ⟨e0, e1, e2, -, -, -, -, -, -⟩ := idx_facts ⟨16 * b.val + a.val, h⟩
  have e0' : win0_0.index ⟨16 * b.val + a.val, h⟩ (0 : Fin 3) = (16 * b.val + a.val) / 16 := e0
  have e1' : win0_0.index ⟨16 * b.val + a.val, h⟩ (1 : Fin 3) = (16 * b.val + a.val) % 16 := e1
  have hb := b.isLt; have ha := a.isLt
  unfold iblk
  rw [View.read_apply]
  show V m c main_arg0 _ = V m c main_arg0 _
  congr 1
  funext ax
  apply Fin.ext
  match ax with
  | ⟨0, _⟩ =>
    show win0_0.index ⟨16 * b.val + a.val, h⟩ (0 : Fin 3) * 1 + 1 * 0 = b.val
    omega
  | ⟨1, _⟩ =>
    show win0_0.index ⟨16 * b.val + a.val, h⟩ (1 : Fin 3) * 5000 + 1 * r.val = 5000 * a.val + r.val
    omega
  | ⟨2, _⟩ =>
    show win0_0.index ⟨16 * b.val + a.val, h⟩ (2 : Fin 3) * 91 + 1 * cc.val = cc.val
    omega

/-- The code block staged at point 16·b + a, at (0, r, 0), is the code array at (b, 5000·a + r, 0). -/
theorem iblk1_apply (c : Dev nD) (b : Fin 8) (a : Fin 16) (h : 16 * b.val + a.val < cfg0.N) (r : Fin 5000) :
    (iblk m c 1 ⟨16 * b.val + a.val, h⟩ : Vec Ideal S1x5000x1 .i32) (ix3 (0 : Fin 1) r (0 : Fin 1))
      = V m c main_v8 (ix3 b (Cert.Focal.anchor a r) (0 : Fin 1)) := by
  obtain ⟨-, -, -, e0, e1, e2, -, -, -⟩ := idx_facts ⟨16 * b.val + a.val, h⟩
  have e0' : win0_1.index ⟨16 * b.val + a.val, h⟩ (0 : Fin 3) = (16 * b.val + a.val) / 16 := e0
  have e1' : win0_1.index ⟨16 * b.val + a.val, h⟩ (1 : Fin 3) = (16 * b.val + a.val) % 16 := e1
  have hb := b.isLt; have ha := a.isLt
  unfold iblk
  rw [View.read_apply]
  show V m c main_v8 _ = V m c main_v8 _
  congr 1
  funext ax
  apply Fin.ext
  match ax with
  | ⟨0, _⟩ =>
    show win0_1.index ⟨16 * b.val + a.val, h⟩ (0 : Fin 3) * 1 + 1 * 0 = b.val
    omega
  | ⟨1, _⟩ =>
    show win0_1.index ⟨16 * b.val + a.val, h⟩ (1 : Fin 3) * 5000 + 1 * r.val = 5000 * a.val + r.val
    omega
  | ⟨2, _⟩ =>
    show win0_1.index ⟨16 * b.val + a.val, h⟩ (2 : Fin 3) * 1 + 1 * 0 = 0
    omega

/-- The running total after the last tile of image b is the sum over the image, from the arrays as the region finds
    them. -/
theorem accN_image (c : Dev nD) (b : Fin 8) :
    accN m c (16 * b.val + 15) = kerSum (V m c main_arg0) (V m c main_v8) b := by
  have hN : cfg0.N = 128 := N_0
  have hb := b.isLt
  rw [accN_last]
  unfold kerSum
  refine Finset.sum_congr rfl fun a _ => ?_
  have ha := a.isLt
  have h : 16 * b.val + a.val < cfg0.N := by omega
  rw [tileN_of_lt m c _ h]
  unfold tileTotal
  refine Finset.sum_congr rfl fun r _ => Finset.sum_congr rfl fun cc _ => ?_
  rw [iblk0_apply m c b a h r cc, iblk1_apply m c b a h r]

/-- Row b of the output array, in every lane, is the sum over image b. -/
theorem final_apply (c : Dev nD) (b : Fin 8) (l : Fin 128) :
    (dats m 0 c).arrAt 2 cfg0.N (ix3 b (0 : Fin 1) l) = kerSum (V m c main_arg0) (V m c main_v8) b := by
  rw [final m c]
  exact accN_image m c b

end Cert.KernelIdeal.Acc

end
-- ==== Proof.HostTail.lean ====
/-
  The kernel program's result as a function of its arguments.

  After the launch the program takes lane 0 of each image's row of the [8, 1, 128] output array, divides it by
  max(1.0, number of anchors with match index ≥ 0), sums the eight quotients and divides by 8.  The last three operations
  are kept as one closed function (the reference ends with the same three): the result is that function of

    * the per-image sums: row b of the output array holds, in every lane, the sum over image b of the losses
      (Final), the code of anchor (b, a) being `Cert.Focal.enc` of its matched label and its match index;
    * the per-image divisors.

  The exit of the launch hands the lines after it the output array at what the grid left in it and every other buffer
  at what it held before the launch, which is how the mask "match index ≥ 0", computed before the launch, is still
  there to be counted.
-/
import proofs.«177885_j12893491822713_2_alg».proof.Proof.HostPrelude
import proofs.«177885_j12893491822713_2_alg».proof.Proof.Final

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Acc

open Cert.KernelIdeal Cert.KernelIdeal.Gen

variable (m : (ℓ : Loc nD τ sig) → Buf (Elt Ideal) ℓ) (ρ : Dev nD → PrngReg)

/-- A scalar constant broadcast to any shape reads the constant everywhere. -/
theorem bcast_const_apply {t : Shape} (h : S_.BroadcastsInDim t (![] : Fin 0 → Fin t.rank)) (w : Nat) (k : BitVec w) (j : t.Idx) :
    broadcastInDim t ![] h (constantI S_ w k) j = k :=
  broadcastInDim_apply _ h (constantI S_ w k) j (fun a => a.elim0) (fun a => a.elim0)

/-- The code of anchor (b, a), read off the code array: `Cert.Focal.enc` of its matched label and match index. -/
theorem codeArr_apply (x1 : IVec S8x100 32) (x2 : IVec S8x80000 32) (b : Fin 8) (a : Fin 80000) :
    codeArr x1 x2 (ix3 b a (0 : Fin 1)) = Cert.Focal.enc (matchedK x1 x2 (ix2 b a)) (x2 (ix2 b a)) := by
  unfold codeArr
  refine (broadcastInDim_apply _ bcast_S8x80000_S8x80000x1_0_1 _ (ix3 b a (0 : Fin 1)) (ix2 b a) (fun ax => by
    match ax with
    | ⟨0, _⟩ => show b.val = if (8 : Nat) = 1 then 0 else b.val; rw [if_neg (by decide)]
    | ⟨1, _⟩ => show a.val = if (80000 : Nat) = 1 then 0 else a.val; rw [if_neg (by decide)])).trans ?_
  have e0 : broadcastInDim S8x80000 ![] bcast_S_S8x80000 (constantI S_ 32 0#32) (ix2 b a) = 0#32 :=
    bcast_const_apply bcast_S_S8x80000 32 0#32 (ix2 b a)
  have e1 : broadcastInDim S8x80000 ![] bcast_S_S8x80000 (constantI S_ 32 4294967294#32) (ix2 b a) = 4294967294#32 :=
    bcast_const_apply bcast_S_S8x80000 32 4294967294#32 (ix2 b a)
  have e2 : broadcastInDim S8x80000 ![] bcast_S_S8x80000 (constantI S_ 32 4294967295#32) (ix2 b a) = 4294967295#32 :=
    bcast_const_apply bcast_S_S8x80000 32 4294967295#32 (ix2 b a)
  unfold Cert.Focal.enc fgMask
  show Scalar.select (IntOp.cmpi .sge (x2 (ix2 b a)) (broadcastInDim S8x80000 ![] bcast_S_S8x80000 (constantI S_ 32 0#32) (ix2 b a)))
      (matchedK x1 x2 (ix2 b a))
      (Scalar.select (IntOp.cmpi .ne (x2 (ix2 b a)) (broadcastInDim S8x80000 ![] bcast_S_S8x80000 (constantI S_ 32 4294967294#32) (ix2 b a)))
        (broadcastInDim S8x80000 ![] bcast_S_S8x80000 (constantI S_ 32 4294967295#32) (ix2 b a))
        (broadcastInDim S8x80000 ![] bcast_S_S8x80000 (constantI S_ 32 4294967294#32) (ix2 b a))) = _
  rw [e0, e1, e2]

attribute [local irreducible] Host.reduce in
/-- A matched label is the fill word −2³¹ or one of the labels: a gather reads its table at SOME index. -/
theorem matchedK_mem (x1 : IVec S8x100 32) (x2 : IVec S8x80000 32) (j : S8x80000.Idx) :
    matchedK x1 x2 j = 2147483648#32 ∨ ∃ k : S8x100.Idx, matchedK x1 x2 j = x1 k := by
  unfold matchedK
  rw [select_apply, bcast_const_apply bcast_S_S8x80000 32 2147483648#32 j]
  by_cases h : inRange x2 j = 1#1
  · rw [h, select_one]
    exact Or.inr ⟨_, rfl⟩
  · rw [eq_zero_of_ne_one h, select_zero]
    exact Or.inl rfl

/-! ## The tail: lane 0 of each image's row, the per-image divisor, the mean over the eight images -/

/-- The count of anchors with a non-negative match index, per image. -/
def nfgK (x2 : IVec S8x80000 32) : IVec S8 32 :=
  Host.reduce IntOp.addi (extui 32 (fgMask x2) natLt_1_32) (constantI S_ 32 0#32) reducesTo_S8x80000_S8_d1 h_S_

/-- The last three operations: divide each image's sum by its divisor, sum the eight quotients from zero, divide by 8.
    Both programs end with them; they are never opened. -/
def tailK (S den : FVec Ideal S8 .f32) : FVec Ideal S_ .f32 :=
  Host.divf (F := Ideal)
    (Host.reduceAdd (F := Ideal) (Host.divf (F := Ideal) S den) (constant (F := Ideal) S_ .f32 0x00000000#32) reducesTo_S8_S_d0 h_S_)
    (constant (F := Ideal) S_ .f32 0x41000000#32)

/-- The per-image divisor as this program spells it: max(1.0, the count read as a float). -/
def denK (x2 : IVec S8x80000 32) : FVec Ideal S8 .f32 :=
  maximumf (broadcastInDim S8 ![] bcast_S_S8 (constant (F := Ideal) S_ .f32 0x3F800000#32)) (sitofp .f32 (nfgK x2))

attribute [local irreducible] Host.reduce Host.gather in
/-- The program's result: the tail of lane 0 of the output array's rows and of the divisor. -/
theorem tail_eq (c : Dev nD) :
    Pipeline.afterTail₀ cfgs (dats m) 0 (V0 m) [hostOps1] c main_v19
      = tailK
          (shapeCast S8 (extractStridedSlice S8x1x1 ![0, 0, 0] (outArr m c) slices_S8x1x128_S8x1x1_0_0_0) shapeCasts_S8x1x1_S8)
          (denK (m ((c : Thread nD τ).loc main_arg2))) := by
  unfold Pipeline.afterTail₀
  show StableHlo.after hostOps1 _ (Proc.devRef .tc main_v19) = _
  after_results
  rw [show Pipeline.withArrays _ c _ _ (Proc.devRef .tc main_v9) = outArr m c from
      (Pipeline.withArrays_arr spec0 launch0.win.arr_inj c _ _ 2).trans (final m c),
    show Pipeline.withArrays _ c _ _ (Proc.devRef .tc main_v1) = fgMask (m ((c : Thread nD τ).loc main_arg2)) from
      (Pipeline.withArrays_of_ne _ c (V0 m c) _ main_v1 (by exact (by decide : ∀ w, Pipeline.arrRef spec0 w ≠ main_v1))).trans (V_v1 m c)]
  rfl

/-- Lane 0 of row b of an [8, 1, 128] array, through the slice and the reshape. -/
theorem lane0_apply (A : S8x1x128.Idx → EReal) (b : Fin 8) :
    shapeCast S8 (extractStridedSlice S8x1x1 ![0, 0, 0] A slices_S8x1x128_S8x1x1_0_0_0) shapeCasts_S8x1x1_S8 (ix1 b)
      = A (ix3 b (0 : Fin 1) (0 : Fin 128)) := by
  refine (shapeCast_apply _ shapeCasts_S8x1x1_S8 (ix1 b) (ix3 b (0 : Fin 1) (0 : Fin 1)) (by
    rw [Shape.rowMajor_val_three, Shape.rowMajor_val_one]
    show (b.val * 1 + 0) * 1 + 0 = b.val
    omega)).trans ?_
  exact extractStridedSlice_apply _ A slices_S8x1x128_S8x1x1_0_0_0 (ix3 b (0 : Fin 1) (0 : Fin 1)) (ix3 b (0 : Fin 1) (0 : Fin 128)) (fun ax => by
    match ax with
    | ⟨0, _⟩ => show b.val = 0 + b.val; omega
    | ⟨1, _⟩ => show 0 = 0 + 0; rfl
    | ⟨2, _⟩ => show 0 = 0 + 0; rfl)

/-! ## The kernel program's run, read -/

/-- The kernel program's result as a function of its three arguments. -/
def kernelResult (x0 : S8x80000x91.Idx → EReal) (x1 : IVec S8x100 32) (x2 : IVec S8x80000 32) : FVec Ideal S_ .f32 :=
  tailK (fun j => kerSum x0 (codeArr x1 x2) (j 0)) (denK x2)

/-- Lane 0 of row b of the output array is the sum over image b, from the arguments. -/
theorem rows_eq (c : Dev nD) :
    shapeCast S8 (extractStridedSlice S8x1x1 ![0, 0, 0] (outArr m c) slices_S8x1x128_S8x1x1_0_0_0) shapeCasts_S8x1x1_S8
      = fun j => kerSum (m ((c : Thread nD τ).loc main_arg0))
          (codeArr (m ((c : Thread nD τ).loc main_arg1)) (m ((c : Thread nD τ).loc main_arg2))) (j 0) := by
  funext j
  obtain ⟨b, rfl⟩ : ∃ b : Fin 8, j = ix1 b := ⟨j 0, eq_ix1 j⟩
  refine (lane0_apply _ b).trans ?_
  show accN m c (16 * b.val + 15) = _
  rw [accN_image m c b, V_main_arg0 m c, V_v8 m c]

/-- Every weakly fair execution of the kernel program ends with its result at `kernelResult` of the arguments, and the
    arguments unchanged. -/
theorem kernel_run : θ_run (defs (F := Ideal)) (onTc (τ := τ) (main (F := Ideal))) ⟨m, fun _ => 0, ρ⟩ (fun r => ∀ c : Dev nD,
      r.2.mem ((c.tc : Thread nD τ).loc main_v19)
          = kernelResult (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨
      ((h c).2 main_v19 (Pipeline.mem_restRefs_of main_v19 (by decide) (by decide))).trans
        ((tail_eq m c).trans (by rw [rows_eq m c]; rfl)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Acc

end
-- ==== Proof.RefRun.lean ====
/-
  The run of the reference program, read back in two pieces.

  The program is a straight line of 105 tensor operations.  Its first 32 compute, from the match indices alone and
  the labels, three integer tensors over (image, anchor): the mask "match index ≥ 0", the mask "match index ≠ −2"
  and the matched label (the label gathered at the clipped match index, or a fill word).  The remaining 73 compute
  the focal loss of every logit from the logits and those three tensors, sum it per image, divide by the per-image
  count of set mask bits (at least 1), and average over the eight images.

  Running a concatenation of two lines is running the first and then the second from what the first left
  (`after_append`).  So the contents of the result buffer are the second piece's term, a function of the logits and
  of the three integer tensors as opaque values, with the first piece's three terms put in their place.  Each piece
  is short enough that its fold is an equation between small terms.
-/
import proofs.«177885_j12893491822713_2_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The first 32 operations: the two masks of the match indices, the clip of the match index at 0 (the outlined
    clip, three operations) and the gather of the labels along it (the outlined take-along-axis, 22 operations). -/
abbrev W1 : List (HloOp τ sig (Elt F)) :=
  [ nullary main_c (constantI S_ 32 0#32),
    unary main_c main_v0 (broadcastInDim S8x80000 ![] bcast_S_S8x80000 : (⟨S_, .i32⟩ : BufTy).Contents (Elt F) → (⟨S8x80000, .i32⟩ : BufTy).Contents (Elt F)),
    binary main_arg2 main_v0 main_v1 (cmpi .sge : (⟨S8x80000, .i32⟩ : BufTy).Contents (Elt F) → (⟨S8x80000, .i32⟩ : BufTy).Contents (Elt F) → (⟨S8x80000, .i1⟩ : BufTy).Contents (Elt F)),
    nullary main_c_0 (constantI S_ 32 4294967294#32),
    unary main_c_0 main_v2 (broadcastInDim S8x80000 ![] bcast_S_S8x80000 : (⟨S_, .i32⟩ : BufTy).Contents (Elt F) → (⟨S8x80000, .i32⟩ : BufTy).Contents (Elt F)),
    binary main_arg2 main_v2 main_v3 (cmpi .ne : (⟨S8x80000, .i32⟩ : BufTy).Contents (Elt F) → (⟨S8x80000, .i32⟩ : BufTy).Contents (Elt F) → (⟨S8x80000, .i1⟩ : BufTy).Contents (Elt F)),
    nullary main_c_1 (constantI S_ 32 0#32),
    TRef.unary (TRef.of (T := ⟨S_, .i32⟩) main_c_1) (TRef.of (T := ⟨S_, .i32⟩) main_call0_v0) id,
    TRef.unary (TRef.of (T := ⟨S_, .i32⟩) main_call0_v0) (TRef.of (T := ⟨S8x80000, .i32⟩) main_call0_v1) (broadcastInDim S8x80000 ![] bcast_S_S8x80000),
    TRef.binary (TRef.of (T := ⟨S8x80000, .i32⟩) main_call0_v1) (TRef.of (T := ⟨S8x80000, .i32⟩) main_arg2) (TRef.of (T := ⟨S8x80000, .i32⟩) main_v4) maxsi,
    TRef.nullary (TRef.of (T := ⟨S_, .i32⟩) main_call1_c) (constantI S_ 32 0#32),
    TRef.unary (TRef.of (T := ⟨S_, .i32⟩) main_call1_c) (TRef.of (T := ⟨S8x80000, .i32⟩) main_call1_v0) (broadcastInDim S8x80000 ![] bcast_S_S8x80000),
    TRef.binary (TRef.of (T := ⟨S8x80000, .i32⟩) main_v4) (TRef.of (T := ⟨S8x80000, .i32⟩) main_call1_v0) (TRef.of (T := ⟨S8x80000, .i1⟩) main_call1_v1) (cmpi .slt),
    TRef.nullary (TRef.of (T := ⟨S_, .i32⟩) main_call1_c_0) (constantI S_ 32 100#32),
    TRef.unary (TRef.of (T := ⟨S_, .i32⟩) main_call1_c_0) (TRef.of (T := ⟨S8x80000, .i32⟩) main_call1_v2) (broadcastInDim S8x80000 ![] bcast_S_S8x80000),
    TRef.binary (TRef.of (T := ⟨S8x80000, .i32⟩) main_v4) (TRef.of (T := ⟨S8x80000, .i32⟩) main_call1_v2) (TRef.of (T := ⟨S8x80000, .i32⟩) main_call1_v3) addi,
    TRef.ternary (TRef.of (T := ⟨S8x80000, .i1⟩) main_call1_v1) (TRef.of (T := ⟨S8x80000, .i32⟩) main_call1_v3) (TRef.of (T := ⟨S8x80000, .i32⟩) main_v4) (TRef.of (T := ⟨S8x80000, .i32⟩) main_call1_v4) select,
    TRef.reshape (TRef.of (T := ⟨S8x80000, .i32⟩) main_call1_v4) (TRef.of (T := ⟨S8x80000x1, .i32⟩) main_call1_v5) rfl shapeCasts_S8x80000_S8x80000x1,
    TRef.nullary (TRef.of (T := ⟨S1, .i32⟩) main_call1_c_1) (constantI S1 32 99#32),
    TRef.nullary (TRef.of (T := ⟨S_, .i32⟩) main_call1_c_2) (constantI S_ 32 0#32),
    TRef.unary (TRef.of (T := ⟨S_, .i32⟩) main_call1_c_2) (TRef.of (T := ⟨S8x80000x1, .i32⟩) main_call1_v6) (broadcastInDim S8x80000x1 ![] bcast_S_S8x80000x1),
    TRef.binary (TRef.of (T := ⟨S8x80000x1, .i32⟩) main_call1_v5) (TRef.of (T := ⟨S8x80000x1, .i32⟩) main_call1_v6) (TRef.of (T := ⟨S8x80000x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S8x80000x1, .i32⟩) main_call1_v9) (broadcastInDim S8x80000x1 ![0, 1, 2] bcast_S1x1x1_S8x80000x1_0_1_2),
    TRef.binary (TRef.of (T := ⟨S8x80000x1, .i32⟩) main_call1_v5) (TRef.of (T := ⟨S8x80000x1, .i32⟩) main_call1_v9) (TRef.of (T := ⟨S8x80000x1, .i1⟩) main_call1_v10) (cmpi .sle),
    TRef.binary (TRef.of (T := ⟨S8x80000x1, .i1⟩) main_call1_v7) (TRef.of (T := ⟨S8x80000x1, .i1⟩) main_call1_v10) (TRef.of (T := ⟨S8x80000x1, .i1⟩) main_call1_v11) andi,
    TRef.nullary (TRef.of (T := ⟨S_, .i1⟩) main_call1_c_3) (constantI S_ 1 1#1),
    TRef.binary (TRef.of (T := ⟨S8x80000x1, .i1⟩) main_call1_v11) (TRef.of (T := ⟨S_, .i1⟩) main_call1_c_3) (TRef.of (T := ⟨S8x80000, .i1⟩) main_call1_v12) (fun x v => Host.reduce IntOp.andi x v reducesTo_S8x80000x1_S8x80000_d2 h_S_),
    TRef.binary (TRef.of (T := ⟨S8x100, .i32⟩) main_arg1) (TRef.of (T := ⟨S8x80000x1, .i32⟩) main_call1_v5) (TRef.of (T := ⟨S8x80000, .i32⟩) main_call1_v13) (fun x i => Host.gather gather_S8x100_S8x80000x1_S8x80000_n_1_0_0_1_2_11 x i),
    TRef.nullary (TRef.of (T := ⟨S_, .i32⟩) main_call1_c_4) (constantI S_ 32 2147483648#32),
    TRef.unary (TRef.of (T := ⟨S_, .i32⟩) main_call1_c_4) (TRef.of (T := ⟨S8x80000, .i32⟩) main_call1_v14) (broadcastInDim S8x80000 ![] bcast_S_S8x80000),
    TRef.ternary (TRef.of (T := ⟨S8x80000, .i1⟩) main_call1_v12) (TRef.of (T := ⟨S8x80000, .i32⟩) main_call1_v13) (TRef.of (T := ⟨S8x80000, .i32⟩) main_call1_v14) (TRef.of (T := ⟨S8x80000, .i32⟩) main_v5) select ]

/-- The remaining 73 operations: the class target, the loss of every logit, the sums and the quotients. -/
abbrev W2 : List (HloOp τ sig (Elt F)) :=
  [ unary main_v1 main_v6 (broadcastInDim S8x80000x1 ![0, 1] bcast_S8x80000_S8x80000x1_0_1 : (⟨S8x80000, .i1⟩ : BufTy).Contents (Elt F) → (⟨S8x80000x1, .i1⟩ : BufTy).Contents (Elt F)),
    nullary main_v7 (iotaInDim S91 32 0),
    unary main_v7 main_v8 (broadcastInDim S1x1x91 ![2] bcast_S91_S1x1x91_2 : (⟨S91, .i32⟩ : BufTy).Contents (Elt F) → (⟨S1x1x91, .i32⟩ : BufTy).Contents (Elt F)),
    unary main_v5 main_v9 (broadcastInDim S8x80000x1 ![0, 1] bcast_S8x80000_S8x80000x1_0_1 : (⟨S8x80000, .i32⟩ : BufTy).Contents (Elt F) → (⟨S8x80000x1, .i32⟩ : BufTy).Contents (Elt F)),
    unary main_v8 main_v10 (broadcastInDim S8x80000x91 ![0, 1, 2] bcast_S1x1x91_S8x80000x91_0_1_2 : (⟨S1x1x91, .i32⟩ : BufTy).Contents (Elt F) → (⟨S8x80000x91, .i32⟩ : BufTy).Contents (Elt F)),
    unary main_v9 main_v11 (broadcastInDim S8x80000x91 ![0, 1, 2] bcast_S8x80000x1_S8x80000x91_0_1_2 : (⟨S8x80000x1, .i32⟩ : BufTy).Contents (Elt F) → (⟨S8x80000x91, .i32⟩ : BufTy).Contents (Elt F)),
    binary main_v10 main_v11 main_v12 (cmpi .eq : (⟨S8x80000x91, .i32⟩ : BufTy).Contents (Elt F) → (⟨S8x80000x91, .i32⟩ : BufTy).Contents (Elt F) → (⟨S8x80000x91, .i1⟩ : BufTy).Contents (Elt F)),
    unary main_v6 main_v13 (broadcastInDim S8x80000x91 ![0, 1, 2] bcast_S8x80000x1_S8x80000x91_0_1_2 : (⟨S8x80000x1, .i1⟩ : BufTy).Contents (Elt F) → (⟨S8x80000x91, .i1⟩ : BufTy).Contents (Elt F)),
    binary main_v13 main_v12 main_v14 (andi : (⟨S8x80000x91, .i1⟩ : BufTy).Contents (Elt F) → (⟨S8x80000x91, .i1⟩ : BufTy).Contents (Elt F) → (⟨S8x80000x91, .i1⟩ : BufTy).Contents (Elt F)),
    unary main_v14 main_v15 (uitofp .f32 : (⟨S8x80000x91, .i1⟩ : BufTy).Contents (Elt F) → (⟨S8x80000x91, .f32⟩ : BufTy).Contents (Elt F)),
    unary main_arg0 main_v16 (Host.negf : (⟨S8x80000x91, .f32⟩ : BufTy).Contents (Elt F) → (⟨S8x80000x91, .f32⟩ : BufTy).Contents (Elt F)),
    unary main_v16 main_v17 (Host.exp : (⟨S8x80000x91, .f32⟩ : BufTy).Contents (Elt F) → (⟨S8x80000x91, .f32⟩ : BufTy).Contents (Elt F)),
    nullary main_cst (constant S_ .f32 0x3F800000#32),
    unary main_cst main_v18 (broadcastInDim S8x80000x91 ![] bcast_S_S8x80000x91 : (⟨S_, .f32⟩ : BufTy).Contents (Elt F) → (⟨S8x80000x91, .f32⟩ : BufTy).Contents (Elt F)),
    binary main_v18 main_v17 main_v19 (addf : (⟨S8x80000x91, .f32⟩ : BufTy).Contents (Elt F) → (⟨S8x80000x91, .f32⟩ : BufTy).Contents (Elt F) → (⟨S8x80000x91, .f32⟩ : BufTy).Contents (Elt F)),
    nullary main_cst_2 (constant S_ .f32 0x3F800000#32),
    unary main_cst_2 main_v20 (broadcastInDim S8x80000x91 ![] bcast_S_S8x80000x91 : (⟨S_, .f32⟩ : BufTy).Contents (Elt F) → (⟨S8x80000x91, .f32⟩ : BufTy).Contents (Elt F)),
    binary main_v20 main_v19 main_v21 (Host.divf : (⟨S8x80000x91, .f32⟩ : BufTy).Contents (Elt F) → (⟨S8x80000x91, .f32⟩ : BufTy).Contents (Elt F) → (⟨S8x80000x91, .f32⟩ : BufTy).Contents (Elt F)),
    nullary main_cst_3 (constant S_ .f32 0x00000000#32),
    unary main_cst_3 main_v22 (broadcastInDim S8x80000x91 ![] bcast_S_S8x80000x91 : (⟨S_, .f32⟩ : BufTy).Contents (Elt F) → (⟨S8x80000x91, .f32⟩ : BufTy).Contents (Elt F)),
    binary main_arg0 main_v22 main_v23 (maximumf : (⟨S8x80000x91, .f32⟩ : BufTy).Contents (Elt F) → (⟨S8x80000x91, .f32⟩ : BufTy).Contents (Elt F) → (⟨S8x80000x91, .f32⟩ : BufTy).Contents (Elt F)),
    binary main_arg0 main_v15 main_v24 (mulf : (⟨S8x80000x91, .f32⟩ : BufTy).Contents (Elt F) → (⟨S8x80000x91, .f32⟩ : BufTy).Contents (Elt F) → (⟨S8x80000x91, .f32⟩ : BufTy).Contents (Elt F)),
    binary main_v23 main_v24 main_v25 (subf : (⟨S8x80000x91, .f32⟩ : BufTy).Contents (Elt F) → (⟨S8x80000x91, .f32⟩ : BufTy).Contents (Elt F) → (⟨S8x80000x91, .f32⟩ : BufTy).Contents (Elt F)),
    unary main_arg0 main_v26 (Host.absf : (⟨S8x80000x91, .f32⟩ : BufTy).Contents (Elt F) → (⟨S8x80000x91, .f32⟩ : BufTy).Contents (Elt F)),
    unary main_v26 main_v27 (Host.negf : (⟨S8x80000x91, .f32⟩ : BufTy).Contents (Elt F) → (⟨S8x80000x91, .f32⟩ : BufTy).Contents (Elt F)),
    unary main_v27 main_v28 (Host.exp : (⟨S8x80000x91, .f32⟩ : BufTy).Contents (Elt F) → (⟨S8x80000x91, .f32⟩ : BufTy).Contents (Elt F)),
    unary main_v28 main_v29 (Host.log1p : (⟨S8x80000x91, .f32⟩ : BufTy).Contents (Elt F) → (⟨S8x80000x91, .f32⟩ : BufTy).Contents (Elt F)),
    binary main_v25 main_v29 main_v30 (addf : (⟨S8x80000x91, .f32⟩ : BufTy).Contents (Elt F) → (⟨S8x80000x91, .f32⟩ : BufTy).Contents (Elt F) → (⟨S8x80000x91, .f32⟩ : BufTy).Contents (Elt F)),
    binary main_v21 main_v15 main_v31 (mulf : (⟨S8x80000x91, .f32⟩ : BufTy).Contents (Elt F) → (⟨S8x80000x91, .f32⟩ : BufTy).Contents (Elt F) → (⟨S8x80000x91, .f32⟩ : BufTy).Contents (Elt F)),
    nullary main_cst_4 (constant S_ .f32 0x3F800000#32),
    unary main_cst_4 main_v32 (broadcastInDim S8x80000x91 ![] bcast_S_S8x80000x91 : (⟨S_, .f32⟩ : BufTy).Contents (Elt F) → (⟨S8x80000x91, .f32⟩ : BufTy).Contents (Elt F)),
    binary main_v32 main_v21 main_v33 (subf : (⟨S8x80000x91, .f32⟩ : BufTy).Contents (Elt F) → (⟨S8x80000x91, .f32⟩ : BufTy).Contents (Elt F) → (⟨S8x80000x91, .f32⟩ : BufTy).Contents (Elt F)),
    nullary main_cst_5 (constant S_ .f32 0x3F800000#32),
    unary main_cst_5 main_v34 (broadcastInDim S8x80000x91 ![] bcast_S_S8x80000x91 : (⟨S_, .f32⟩ : BufTy).Contents (Elt F) → (⟨S8x80000x91, .f32⟩ : BufTy).Contents (Elt F)),
    binary main_v34 main_v15 main_v35 (subf : (⟨S8x80000x91, .f32⟩ : BufTy).Contents (Elt F) → (⟨S8x80000x91, .f32⟩ : BufTy).Contents (Elt F) → (⟨S8x80000x91, .f32⟩ : BufTy).Contents (Elt F)),
    binary main_v33 main_v35 main_v36 (mulf : (⟨S8x80000x91, .f32⟩ : BufTy).Contents (Elt F) → (⟨S8x80000x91, .f32⟩ : BufTy).Contents (Elt F) → (⟨S8x80000x91, .f32⟩ : BufTy).Contents (Elt F)),
    binary main_v31 main_v36 main_v37 (addf : (⟨S8x80000x91, .f32⟩ : BufTy).Contents (Elt F) → (⟨S8x80000x91, .f32⟩ : BufTy).Contents (Elt F) → (⟨S8x80000x91, .f32⟩ : BufTy).Contents (Elt F)),
    nullary main_cst_6 (constant S_ .f32 0x3E800000#32),
    unary main_cst_6 main_v38 (broadcastInDim S8x80000x91 ![] bcast_S_S8x80000x91 : (⟨S_, .f32⟩ : BufTy).Contents (Elt F) → (⟨S8x80000x91, .f32⟩ : BufTy).Contents (Elt F)),
    binary main_v38 main_v15 main_v39 (mulf : (⟨S8x80000x91, .f32⟩ : BufTy).Contents (Elt F) → (⟨S8x80000x91, .f32⟩ : BufTy).Contents (Elt F) → (⟨S8x80000x91, .f32⟩ : BufTy).Contents (Elt F)),
    nullary main_cst_7 (constant S_ .f32 0x3F800000#32),
    unary main_cst_7 main_v40 (broadcastInDim S8x80000x91 ![] bcast_S_S8x80000x91 : (⟨S_, .f32⟩ : BufTy).Contents (Elt F) → (⟨S8x80000x91, .f32⟩ : BufTy).Contents (Elt F)),
    binary main_v40 main_v15 main_v41 (subf : (⟨S8x80000x91, .f32⟩ : BufTy).Contents (Elt F) → (⟨S8x80000x91, .f32⟩ : BufTy).Contents (Elt F) → (⟨S8x80000x91, .f32⟩ : BufTy).Contents (Elt F)),
    nullary main_cst_8 (constant S_ .f32 0x3F400000#32),
    unary main_cst_8 main_v42 (broadcastInDim S8x80000x91 ![] bcast_S_S8x80000x91 : (⟨S_, .f32⟩ : BufTy).Contents (Elt F) → (⟨S8x80000x91, .f32⟩ : BufTy).Contents (Elt F)),
    binary main_v42 main_v41 main_v43 (mulf : (⟨S8x80000x91, .f32⟩ : BufTy).Contents (Elt F) → (⟨S8x80000x91, .f32⟩ : BufTy).Contents (Elt F) → (⟨S8x80000x91, .f32⟩ : BufTy).Contents (Elt F)),
    binary main_v39 main_v43 main_v44 (addf : (⟨S8x80000x91, .f32⟩ : BufTy).Contents (Elt F) → (⟨S8x80000x91, .f32⟩ : BufTy).Contents (Elt F) → (⟨S8x80000x91, .f32⟩ : BufTy).Contents (Elt F)),
    binary main_v44 main_v30 main_v45 (mulf : (⟨S8x80000x91, .f32⟩ : BufTy).Contents (Elt F) → (⟨S8x80000x91, .f32⟩ : BufTy).Contents (Elt F) → (⟨S8x80000x91, .f32⟩ : BufTy).Contents (Elt F)),
    nullary main_cst_9 (constant S_ .f32 0x3F800000#32),
    unary main_cst_9 main_v46 (broadcastInDim S8x80000x91 ![] bcast_S_S8x80000x91 : (⟨S_, .f32⟩ : BufTy).Contents (Elt F) → (⟨S8x80000x91, .f32⟩ : BufTy).Contents (Elt F)),
    binary main_v46 main_v37 main_v47 (subf : (⟨S8x80000x91, .f32⟩ : BufTy).Contents (Elt F) → (⟨S8x80000x91, .f32⟩ : BufTy).Contents (Elt F) → (⟨S8x80000x91, .f32⟩ : BufTy).Contents (Elt F)),
    nullary main_cst_10 (constant S_ .f32 0x40000000#32),
    unary main_cst_10 main_v48 (broadcastInDim S8x80000x91 ![] bcast_S_S8x80000x91 : (⟨S_, .f32⟩ : BufTy).Contents (Elt F) → (⟨S8x80000x91, .f32⟩ : BufTy).Contents (Elt F)),
    binary main_v47 main_v48 main_v49 (Host.powf : (⟨S8x80000x91, .f32⟩ : BufTy).Contents (Elt F) → (⟨S8x80000x91, .f32⟩ : BufTy).Contents (Elt F) → (⟨S8x80000x91, .f32⟩ : BufTy).Contents (Elt F)),
    binary main_v45 main_v49 main_v50 (mulf : (⟨S8x80000x91, .f32⟩ : BufTy).Contents (Elt F) → (⟨S8x80000x91, .f32⟩ : BufTy).Contents (Elt F) → (⟨S8x80000x91, .f32⟩ : BufTy).Contents (Elt F)),
    unary main_v3 main_v51 (broadcastInDim S8x80000x1 ![0, 1] bcast_S8x80000_S8x80000x1_0_1 : (⟨S8x80000, .i1⟩ : BufTy).Contents (Elt F) → (⟨S8x80000x1, .i1⟩ : BufTy).Contents (Elt F)),
    unary main_v51 main_v52 (uitofp .f32 : (⟨S8x80000x1, .i1⟩ : BufTy).Contents (Elt F) → (⟨S8x80000x1, .f32⟩ : BufTy).Contents (Elt F)),
    unary main_v52 main_v53 (broadcastInDim S8x80000x91 ![0, 1, 2] bcast_S8x80000x1_S8x80000x91_0_1_2 : (⟨S8x80000x1, .f32⟩ : BufTy).Contents (Elt F) → (⟨S8x80000x91, .f32⟩ : BufTy).Contents (Elt F)),
    binary main_v50 main_v53 main_v54 (mulf : (⟨S8x80000x91, .f32⟩ : BufTy).Contents (Elt F) → (⟨S8x80000x91, .f32⟩ : BufTy).Contents (Elt F) → (⟨S8x80000x91, .f32⟩ : BufTy).Contents (Elt F)),
    unary main_v1 main_v55 ((extui 32 · natLt_1_32) : (⟨S8x80000, .i1⟩ : BufTy).Contents (Elt F) → (⟨S8x80000, .i32⟩ : BufTy).Contents (Elt F)),
    nullary main_c_11 (constantI S_ 32 0#32),
    binary main_v55 main_c_11 main_v56 ((fun x v => Host.reduce IntOp.addi x v reducesTo_S8x80000_S8_d1 h_S_) : (⟨S8x80000, .i32⟩ : BufTy).Contents (Elt F) → (⟨S_, .i32⟩ : BufTy).Contents (Elt F) → (⟨S8, .i32⟩ : BufTy).Contents (Elt F)),
    nullary main_cst_12 (constant S_ .f32 0x00000000#32),
    binary main_v54 main_cst_12 main_v57 ((fun x v => Host.reduceAdd x v reducesTo_S8x80000x91_S8_d1_2 h_S_) : (⟨S8x80000x91, .f32⟩ : BufTy).Contents (Elt F) → (⟨S_, .f32⟩ : BufTy).Contents (Elt F) → (⟨S8, .f32⟩ : BufTy).Contents (Elt F)),
    nullary main_c_13 (constantI S_ 32 1#32),
    unary main_c_13 main_v58 (broadcastInDim S8 ![] bcast_S_S8 : (⟨S_, .i32⟩ : BufTy).Contents (Elt F) → (⟨S8, .i32⟩ : BufTy).Contents (Elt F)),
    binary main_v58 main_v56 main_v59 (maxsi : (⟨S8, .i32⟩ : BufTy).Contents (Elt F) → (⟨S8, .i32⟩ : BufTy).Contents (Elt F) → (⟨S8, .i32⟩ : BufTy).Contents (Elt F)),
    unary main_v59 main_v60 (sitofp .f32 : (⟨S8, .i32⟩ : BufTy).Contents (Elt F) → (⟨S8, .f32⟩ : BufTy).Contents (Elt F)),
    binary main_v57 main_v60 main_v61 (Host.divf : (⟨S8, .f32⟩ : BufTy).Contents (Elt F) → (⟨S8, .f32⟩ : BufTy).Contents (Elt F) → (⟨S8, .f32⟩ : BufTy).Contents (Elt F)),
    nullary main_cst_14 (constant S_ .f32 0x00000000#32),
    binary main_v61 main_cst_14 main_v62 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_15 (constant S_ .f32 0x41000000#32),
    binary main_v62 main_cst_15 main_v63 (Host.divf : (⟨S_, .f32⟩ : BufTy).Contents (Elt F) → (⟨S_, .f32⟩ : BufTy).Contents (Elt F) → (⟨S_, .f32⟩ : BufTy).Contents (Elt F)) ]

/-- All 105 operations, in order (a called function's operations stand in its call's place). -/
abbrev ops : List (HloOp τ sig (Elt F)) :=
  [ nullary main_c (constantI S_ 32 0#32),
    unary main_c main_v0 (broadcastInDim S8x80000 ![] bcast_S_S8x80000 : (⟨S_, .i32⟩ : BufTy).Contents (Elt F) → (⟨S8x80000, .i32⟩ : BufTy).Contents (Elt F)),
    binary main_arg2 main_v0 main_v1 (cmpi .sge : (⟨S8x80000, .i32⟩ : BufTy).Contents (Elt F) → (⟨S8x80000, .i32⟩ : BufTy).Contents (Elt F) → (⟨S8x80000, .i1⟩ : BufTy).Contents (Elt F)),
    nullary main_c_0 (constantI S_ 32 4294967294#32),
    unary main_c_0 main_v2 (broadcastInDim S8x80000 ![] bcast_S_S8x80000 : (⟨S_, .i32⟩ : BufTy).Contents (Elt F) → (⟨S8x80000, .i32⟩ : BufTy).Contents (Elt F)),
    binary main_arg2 main_v2 main_v3 (cmpi .ne : (⟨S8x80000, .i32⟩ : BufTy).Contents (Elt F) → (⟨S8x80000, .i32⟩ : BufTy).Contents (Elt F) → (⟨S8x80000, .i1⟩ : BufTy).Contents (Elt F)),
    nullary main_c_1 (constantI S_ 32 0#32),
    TRef.unary (TRef.of (T := ⟨S_, .i32⟩) main_c_1) (TRef.of (T := ⟨S_, .i32⟩) main_call0_v0) id,
    TRef.unary (TRef.of (T := ⟨S_, .i32⟩) main_call0_v0) (TRef.of (T := ⟨S8x80000, .i32⟩) main_call0_v1) (broadcastInDim S8x80000 ![] bcast_S_S8x80000),
    TRef.binary (TRef.of (T := ⟨S8x80000, .i32⟩) main_call0_v1) (TRef.of (T := ⟨S8x80000, .i32⟩) main_arg2) (TRef.of (T := ⟨S8x80000, .i32⟩) main_v4) maxsi,
    TRef.nullary (TRef.of (T := ⟨S_, .i32⟩) main_call1_c) (constantI S_ 32 0#32),
    TRef.unary (TRef.of (T := ⟨S_, .i32⟩) main_call1_c) (TRef.of (T := ⟨S8x80000, .i32⟩) main_call1_v0) (broadcastInDim S8x80000 ![] bcast_S_S8x80000),
    TRef.binary (TRef.of (T := ⟨S8x80000, .i32⟩) main_v4) (TRef.of (T := ⟨S8x80000, .i32⟩) main_call1_v0) (TRef.of (T := ⟨S8x80000, .i1⟩) main_call1_v1) (cmpi .slt),
    TRef.nullary (TRef.of (T := ⟨S_, .i32⟩) main_call1_c_0) (constantI S_ 32 100#32),
    TRef.unary (TRef.of (T := ⟨S_, .i32⟩) main_call1_c_0) (TRef.of (T := ⟨S8x80000, .i32⟩) main_call1_v2) (broadcastInDim S8x80000 ![] bcast_S_S8x80000),
    TRef.binary (TRef.of (T := ⟨S8x80000, .i32⟩) main_v4) (TRef.of (T := ⟨S8x80000, .i32⟩) main_call1_v2) (TRef.of (T := ⟨S8x80000, .i32⟩) main_call1_v3) addi,
    TRef.ternary (TRef.of (T := ⟨S8x80000, .i1⟩) main_call1_v1) (TRef.of (T := ⟨S8x80000, .i32⟩) main_call1_v3) (TRef.of (T := ⟨S8x80000, .i32⟩) main_v4) (TRef.of (T := ⟨S8x80000, .i32⟩) main_call1_v4) select,
    TRef.reshape (TRef.of (T := ⟨S8x80000, .i32⟩) main_call1_v4) (TRef.of (T := ⟨S8x80000x1, .i32⟩) main_call1_v5) rfl shapeCasts_S8x80000_S8x80000x1,
    TRef.nullary (TRef.of (T := ⟨S1, .i32⟩) main_call1_c_1) (constantI S1 32 99#32),
    TRef.nullary (TRef.of (T := ⟨S_, .i32⟩) main_call1_c_2) (constantI S_ 32 0#32),
    TRef.unary (TRef.of (T := ⟨S_, .i32⟩) main_call1_c_2) (TRef.of (T := ⟨S8x80000x1, .i32⟩) main_call1_v6) (broadcastInDim S8x80000x1 ![] bcast_S_S8x80000x1),
    TRef.binary (TRef.of (T := ⟨S8x80000x1, .i32⟩) main_call1_v5) (TRef.of (T := ⟨S8x80000x1, .i32⟩) main_call1_v6) (TRef.of (T := ⟨S8x80000x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S8x80000x1, .i32⟩) main_call1_v9) (broadcastInDim S8x80000x1 ![0, 1, 2] bcast_S1x1x1_S8x80000x1_0_1_2),
    TRef.binary (TRef.of (T := ⟨S8x80000x1, .i32⟩) main_call1_v5) (TRef.of (T := ⟨S8x80000x1, .i32⟩) main_call1_v9) (TRef.of (T := ⟨S8x80000x1, .i1⟩) main_call1_v10) (cmpi .sle),
    TRef.binary (TRef.of (T := ⟨S8x80000x1, .i1⟩) main_call1_v7) (TRef.of (T := ⟨S8x80000x1, .i1⟩) main_call1_v10) (TRef.of (T := ⟨S8x80000x1, .i1⟩) main_call1_v11) andi,
    TRef.nullary (TRef.of (T := ⟨S_, .i1⟩) main_call1_c_3) (constantI S_ 1 1#1),
    TRef.binary (TRef.of (T := ⟨S8x80000x1, .i1⟩) main_call1_v11) (TRef.of (T := ⟨S_, .i1⟩) main_call1_c_3) (TRef.of (T := ⟨S8x80000, .i1⟩) main_call1_v12) (fun x v => Host.reduce IntOp.andi x v reducesTo_S8x80000x1_S8x80000_d2 h_S_),
    TRef.binary (TRef.of (T := ⟨S8x100, .i32⟩) main_arg1) (TRef.of (T := ⟨S8x80000x1, .i32⟩) main_call1_v5) (TRef.of (T := ⟨S8x80000, .i32⟩) main_call1_v13) (fun x i => Host.gather gather_S8x100_S8x80000x1_S8x80000_n_1_0_0_1_2_11 x i),
    TRef.nullary (TRef.of (T := ⟨S_, .i32⟩) main_call1_c_4) (constantI S_ 32 2147483648#32),
    TRef.unary (TRef.of (T := ⟨S_, .i32⟩) main_call1_c_4) (TRef.of (T := ⟨S8x80000, .i32⟩) main_call1_v14) (broadcastInDim S8x80000 ![] bcast_S_S8x80000),
    TRef.ternary (TRef.of (T := ⟨S8x80000, .i1⟩) main_call1_v12) (TRef.of (T := ⟨S8x80000, .i32⟩) main_call1_v13) (TRef.of (T := ⟨S8x80000, .i32⟩) main_call1_v14) (TRef.of (T := ⟨S8x80000, .i32⟩) main_v5) select,
    unary main_v1 main_v6 (broadcastInDim S8x80000x1 ![0, 1] bcast_S8x80000_S8x80000x1_0_1 : (⟨S8x80000, .i1⟩ : BufTy).Contents (Elt F) → (⟨S8x80000x1, .i1⟩ : BufTy).Contents (Elt F)),
    nullary main_v7 (iotaInDim S91 32 0),
    unary main_v7 main_v8 (broadcastInDim S1x1x91 ![2] bcast_S91_S1x1x91_2 : (⟨S91, .i32⟩ : BufTy).Contents (Elt F) → (⟨S1x1x91, .i32⟩ : BufTy).Contents (Elt F)),
    unary main_v5 main_v9 (broadcastInDim S8x80000x1 ![0, 1] bcast_S8x80000_S8x80000x1_0_1 : (⟨S8x80000, .i32⟩ : BufTy).Contents (Elt F) → (⟨S8x80000x1, .i32⟩ : BufTy).Contents (Elt F)),
    unary main_v8 main_v10 (broadcastInDim S8x80000x91 ![0, 1, 2] bcast_S1x1x91_S8x80000x91_0_1_2 : (⟨S1x1x91, .i32⟩ : BufTy).Contents (Elt F) → (⟨S8x80000x91, .i32⟩ : BufTy).Contents (Elt F)),
    unary main_v9 main_v11 (broadcastInDim S8x80000x91 ![0, 1, 2] bcast_S8x80000x1_S8x80000x91_0_1_2 : (⟨S8x80000x1, .i32⟩ : BufTy).Contents (Elt F) → (⟨S8x80000x91, .i32⟩ : BufTy).Contents (Elt F)),
    binary main_v10 main_v11 main_v12 (cmpi .eq : (⟨S8x80000x91, .i32⟩ : BufTy).Contents (Elt F) → (⟨S8x80000x91, .i32⟩ : BufTy).Contents (Elt F) → (⟨S8x80000x91, .i1⟩ : BufTy).Contents (Elt F)),
    unary main_v6 main_v13 (broadcastInDim S8x80000x91 ![0, 1, 2] bcast_S8x80000x1_S8x80000x91_0_1_2 : (⟨S8x80000x1, .i1⟩ : BufTy).Contents (Elt F) → (⟨S8x80000x91, .i1⟩ : BufTy).Contents (Elt F)),
    binary main_v13 main_v12 main_v14 (andi : (⟨S8x80000x91, .i1⟩ : BufTy).Contents (Elt F) → (⟨S8x80000x91, .i1⟩ : BufTy).Contents (Elt F) → (⟨S8x80000x91, .i1⟩ : BufTy).Contents (Elt F)),
    unary main_v14 main_v15 (uitofp .f32 : (⟨S8x80000x91, .i1⟩ : BufTy).Contents (Elt F) → (⟨S8x80000x91, .f32⟩ : BufTy).Contents (Elt F)),
    unary main_arg0 main_v16 (Host.negf : (⟨S8x80000x91, .f32⟩ : BufTy).Contents (Elt F) → (⟨S8x80000x91, .f32⟩ : BufTy).Contents (Elt F)),
    unary main_v16 main_v17 (Host.exp : (⟨S8x80000x91, .f32⟩ : BufTy).Contents (Elt F) → (⟨S8x80000x91, .f32⟩ : BufTy).Contents (Elt F)),
    nullary main_cst (constant S_ .f32 0x3F800000#32),
    unary main_cst main_v18 (broadcastInDim S8x80000x91 ![] bcast_S_S8x80000x91 : (⟨S_, .f32⟩ : BufTy).Contents (Elt F) → (⟨S8x80000x91, .f32⟩ : BufTy).Contents (Elt F)),
    binary main_v18 main_v17 main_v19 (addf : (⟨S8x80000x91, .f32⟩ : BufTy).Contents (Elt F) → (⟨S8x80000x91, .f32⟩ : BufTy).Contents (Elt F) → (⟨S8x80000x91, .f32⟩ : BufTy).Contents (Elt F)),
    nullary main_cst_2 (constant S_ .f32 0x3F800000#32),
    unary main_cst_2 main_v20 (broadcastInDim S8x80000x91 ![] bcast_S_S8x80000x91 : (⟨S_, .f32⟩ : BufTy).Contents (Elt F) → (⟨S8x80000x91, .f32⟩ : BufTy).Contents (Elt F)),
    binary main_v20 main_v19 main_v21 (Host.divf : (⟨S8x80000x91, .f32⟩ : BufTy).Contents (Elt F) → (⟨S8x80000x91, .f32⟩ : BufTy).Contents (Elt F) → (⟨S8x80000x91, .f32⟩ : BufTy).Contents (Elt F)),
    nullary main_cst_3 (constant S_ .f32 0x00000000#32),
    unary main_cst_3 main_v22 (broadcastInDim S8x80000x91 ![] bcast_S_S8x80000x91 : (⟨S_, .f32⟩ : BufTy).Contents (Elt F) → (⟨S8x80000x91, .f32⟩ : BufTy).Contents (Elt F)),
    binary main_arg0 main_v22 main_v23 (maximumf : (⟨S8x80000x91, .f32⟩ : BufTy).Contents (Elt F) → (⟨S8x80000x91, .f32⟩ : BufTy).Contents (Elt F) → (⟨S8x80000x91, .f32⟩ : BufTy).Contents (Elt F)),
    binary main_arg0 main_v15 main_v24 (mulf : (⟨S8x80000x91, .f32⟩ : BufTy).Contents (Elt F) → (⟨S8x80000x91, .f32⟩ : BufTy).Contents (Elt F) → (⟨S8x80000x91, .f32⟩ : BufTy).Contents (Elt F)),
    binary main_v23 main_v24 main_v25 (subf : (⟨S8x80000x91, .f32⟩ : BufTy).Contents (Elt F) → (⟨S8x80000x91, .f32⟩ : BufTy).Contents (Elt F) → (⟨S8x80000x91, .f32⟩ : BufTy).Contents (Elt F)),
    unary main_arg0 main_v26 (Host.absf : (⟨S8x80000x91, .f32⟩ : BufTy).Contents (Elt F) → (⟨S8x80000x91, .f32⟩ : BufTy).Contents (Elt F)),
    unary main_v26 main_v27 (Host.negf : (⟨S8x80000x91, .f32⟩ : BufTy).Contents (Elt F) → (⟨S8x80000x91, .f32⟩ : BufTy).Contents (Elt F)),
    unary main_v27 main_v28 (Host.exp : (⟨S8x80000x91, .f32⟩ : BufTy).Contents (Elt F) → (⟨S8x80000x91, .f32⟩ : BufTy).Contents (Elt F)),
    unary main_v28 main_v29 (Host.log1p : (⟨S8x80000x91, .f32⟩ : BufTy).Contents (Elt F) → (⟨S8x80000x91, .f32⟩ : BufTy).Contents (Elt F)),
    binary main_v25 main_v29 main_v30 (addf : (⟨S8x80000x91, .f32⟩ : BufTy).Contents (Elt F) → (⟨S8x80000x91, .f32⟩ : BufTy).Contents (Elt F) → (⟨S8x80000x91, .f32⟩ : BufTy).Contents (Elt F)),
    binary main_v21 main_v15 main_v31 (mulf : (⟨S8x80000x91, .f32⟩ : BufTy).Contents (Elt F) → (⟨S8x80000x91, .f32⟩ : BufTy).Contents (Elt F) → (⟨S8x80000x91, .f32⟩ : BufTy).Contents (Elt F)),
    nullary main_cst_4 (constant S_ .f32 0x3F800000#32),
    unary main_cst_4 main_v32 (broadcastInDim S8x80000x91 ![] bcast_S_S8x80000x91 : (⟨S_, .f32⟩ : BufTy).Contents (Elt F) → (⟨S8x80000x91, .f32⟩ : BufTy).Contents (Elt F)),
    binary main_v32 main_v21 main_v33 (subf : (⟨S8x80000x91, .f32⟩ : BufTy).Contents (Elt F) → (⟨S8x80000x91, .f32⟩ : BufTy).Contents (Elt F) → (⟨S8x80000x91, .f32⟩ : BufTy).Contents (Elt F)),
    nullary main_cst_5 (constant S_ .f32 0x3F800000#32),
    unary main_cst_5 main_v34 (broadcastInDim S8x80000x91 ![] bcast_S_S8x80000x91 : (⟨S_, .f32⟩ : BufTy).Contents (Elt F) → (⟨S8x80000x91, .f32⟩ : BufTy).Contents (Elt F)),
    binary main_v34 main_v15 main_v35 (subf : (⟨S8x80000x91, .f32⟩ : BufTy).Contents (Elt F) → (⟨S8x80000x91, .f32⟩ : BufTy).Contents (Elt F) → (⟨S8x80000x91, .f32⟩ : BufTy).Contents (Elt F)),
    binary main_v33 main_v35 main_v36 (mulf : (⟨S8x80000x91, .f32⟩ : BufTy).Contents (Elt F) → (⟨S8x80000x91, .f32⟩ : BufTy).Contents (Elt F) → (⟨S8x80000x91, .f32⟩ : BufTy).Contents (Elt F)),
    binary main_v31 main_v36 main_v37 (addf : (⟨S8x80000x91, .f32⟩ : BufTy).Contents (Elt F) → (⟨S8x80000x91, .f32⟩ : BufTy).Contents (Elt F) → (⟨S8x80000x91, .f32⟩ : BufTy).Contents (Elt F)),
    nullary main_cst_6 (constant S_ .f32 0x3E800000#32),
    unary main_cst_6 main_v38 (broadcastInDim S8x80000x91 ![] bcast_S_S8x80000x91 : (⟨S_, .f32⟩ : BufTy).Contents (Elt F) → (⟨S8x80000x91, .f32⟩ : BufTy).Contents (Elt F)),
    binary main_v38 main_v15 main_v39 (mulf : (⟨S8x80000x91, .f32⟩ : BufTy).Contents (Elt F) → (⟨S8x80000x91, .f32⟩ : BufTy).Contents (Elt F) → (⟨S8x80000x91, .f32⟩ : BufTy).Contents (Elt F)),
    nullary main_cst_7 (constant S_ .f32 0x3F800000#32),
    unary main_cst_7 main_v40 (broadcastInDim S8x80000x91 ![] bcast_S_S8x80000x91 : (⟨S_, .f32⟩ : BufTy).Contents (Elt F) → (⟨S8x80000x91, .f32⟩ : BufTy).Contents (Elt F)),
    binary main_v40 main_v15 main_v41 (subf : (⟨S8x80000x91, .f32⟩ : BufTy).Contents (Elt F) → (⟨S8x80000x91, .f32⟩ : BufTy).Contents (Elt F) → (⟨S8x80000x91, .f32⟩ : BufTy).Contents (Elt F)),
    nullary main_cst_8 (constant S_ .f32 0x3F400000#32),
    unary main_cst_8 main_v42 (broadcastInDim S8x80000x91 ![] bcast_S_S8x80000x91 : (⟨S_, .f32⟩ : BufTy).Contents (Elt F) → (⟨S8x80000x91, .f32⟩ : BufTy).Contents (Elt F)),
    binary main_v42 main_v41 main_v43 (mulf : (⟨S8x80000x91, .f32⟩ : BufTy).Contents (Elt F) → (⟨S8x80000x91, .f32⟩ : BufTy).Contents (Elt F) → (⟨S8x80000x91, .f32⟩ : BufTy).Contents (Elt F)),
    binary main_v39 main_v43 main_v44 (addf : (⟨S8x80000x91, .f32⟩ : BufTy).Contents (Elt F) → (⟨S8x80000x91, .f32⟩ : BufTy).Contents (Elt F) → (⟨S8x80000x91, .f32⟩ : BufTy).Contents (Elt F)),
    binary main_v44 main_v30 main_v45 (mulf : (⟨S8x80000x91, .f32⟩ : BufTy).Contents (Elt F) → (⟨S8x80000x91, .f32⟩ : BufTy).Contents (Elt F) → (⟨S8x80000x91, .f32⟩ : BufTy).Contents (Elt F)),
    nullary main_cst_9 (constant S_ .f32 0x3F800000#32),
    unary main_cst_9 main_v46 (broadcastInDim S8x80000x91 ![] bcast_S_S8x80000x91 : (⟨S_, .f32⟩ : BufTy).Contents (Elt F) → (⟨S8x80000x91, .f32⟩ : BufTy).Contents (Elt F)),
    binary main_v46 main_v37 main_v47 (subf : (⟨S8x80000x91, .f32⟩ : BufTy).Contents (Elt F) → (⟨S8x80000x91, .f32⟩ : BufTy).Contents (Elt F) → (⟨S8x80000x91, .f32⟩ : BufTy).Contents (Elt F)),
    nullary main_cst_10 (constant S_ .f32 0x40000000#32),
    unary main_cst_10 main_v48 (broadcastInDim S8x80000x91 ![] bcast_S_S8x80000x91 : (⟨S_, .f32⟩ : BufTy).Contents (Elt F) → (⟨S8x80000x91, .f32⟩ : BufTy).Contents (Elt F)),
    binary main_v47 main_v48 main_v49 (Host.powf : (⟨S8x80000x91, .f32⟩ : BufTy).Contents (Elt F) → (⟨S8x80000x91, .f32⟩ : BufTy).Contents (Elt F) → (⟨S8x80000x91, .f32⟩ : BufTy).Contents (Elt F)),
    binary main_v45 main_v49 main_v50 (mulf : (⟨S8x80000x91, .f32⟩ : BufTy).Contents (Elt F) → (⟨S8x80000x91, .f32⟩ : BufTy).Contents (Elt F) → (⟨S8x80000x91, .f32⟩ : BufTy).Contents (Elt F)),
    unary main_v3 main_v51 (broadcastInDim S8x80000x1 ![0, 1] bcast_S8x80000_S8x80000x1_0_1 : (⟨S8x80000, .i1⟩ : BufTy).Contents (Elt F) → (⟨S8x80000x1, .i1⟩ : BufTy).Contents (Elt F)),
    unary main_v51 main_v52 (uitofp .f32 : (⟨S8x80000x1, .i1⟩ : BufTy).Contents (Elt F) → (⟨S8x80000x1, .f32⟩ : BufTy).Contents (Elt F)),
    unary main_v52 main_v53 (broadcastInDim S8x80000x91 ![0, 1, 2] bcast_S8x80000x1_S8x80000x91_0_1_2 : (⟨S8x80000x1, .f32⟩ : BufTy).Contents (Elt F) → (⟨S8x80000x91, .f32⟩ : BufTy).Contents (Elt F)),
    binary main_v50 main_v53 main_v54 (mulf : (⟨S8x80000x91, .f32⟩ : BufTy).Contents (Elt F) → (⟨S8x80000x91, .f32⟩ : BufTy).Contents (Elt F) → (⟨S8x80000x91, .f32⟩ : BufTy).Contents (Elt F)),
    unary main_v1 main_v55 ((extui 32 · natLt_1_32) : (⟨S8x80000, .i1⟩ : BufTy).Contents (Elt F) → (⟨S8x80000, .i32⟩ : BufTy).Contents (Elt F)),
    nullary main_c_11 (constantI S_ 32 0#32),
    binary main_v55 main_c_11 main_v56 ((fun x v => Host.reduce IntOp.addi x v reducesTo_S8x80000_S8_d1 h_S_) : (⟨S8x80000, .i32⟩ : BufTy).Contents (Elt F) → (⟨S_, .i32⟩ : BufTy).Contents (Elt F) → (⟨S8, .i32⟩ : BufTy).Contents (Elt F)),
    nullary main_cst_12 (constant S_ .f32 0x00000000#32),
    binary main_v54 main_cst_12 main_v57 ((fun x v => Host.reduceAdd x v reducesTo_S8x80000x91_S8_d1_2 h_S_) : (⟨S8x80000x91, .f32⟩ : BufTy).Contents (Elt F) → (⟨S_, .f32⟩ : BufTy).Contents (Elt F) → (⟨S8, .f32⟩ : BufTy).Contents (Elt F)),
    nullary main_c_13 (constantI S_ 32 1#32),
    unary main_c_13 main_v58 (broadcastInDim S8 ![] bcast_S_S8 : (⟨S_, .i32⟩ : BufTy).Contents (Elt F) → (⟨S8, .i32⟩ : BufTy).Contents (Elt F)),
    binary main_v58 main_v56 main_v59 (maxsi : (⟨S8, .i32⟩ : BufTy).Contents (Elt F) → (⟨S8, .i32⟩ : BufTy).Contents (Elt F) → (⟨S8, .i32⟩ : BufTy).Contents (Elt F)),
    unary main_v59 main_v60 (sitofp .f32 : (⟨S8, .i32⟩ : BufTy).Contents (Elt F) → (⟨S8, .f32⟩ : BufTy).Contents (Elt F)),
    binary main_v57 main_v60 main_v61 (Host.divf : (⟨S8, .f32⟩ : BufTy).Contents (Elt F) → (⟨S8, .f32⟩ : BufTy).Contents (Elt F) → (⟨S8, .f32⟩ : BufTy).Contents (Elt F)),
    nullary main_cst_14 (constant S_ .f32 0x00000000#32),
    binary main_v61 main_cst_14 main_v62 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_15 (constant S_ .f32 0x41000000#32),
    binary main_v62 main_cst_15 main_v63 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., nullary_bufs_sub .., unary_bufs_sub .., unary_bufs_sub .., unary_bufs_sub .., unary_bufs_sub .., binary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., binary_bufs_sub .., unary_bufs_sub .., nullary_bufs_sub .., binary_bufs_sub .., nullary_bufs_sub .., binary_bufs_sub .., nullary_bufs_sub .., unary_bufs_sub .., binary_bufs_sub .., unary_bufs_sub .., binary_bufs_sub .., nullary_bufs_sub .., binary_bufs_sub .., nullary_bufs_sub .., binary_bufs_sub ..⟩

set_option maxRecDepth 8192 in
/-- The line is its first 32 operations followed by the other 73. -/
theorem ops_split : (ops : List (HloOp τ sig (Elt F))) = W1 ++ W2 := rfl

/-- Running a concatenation is running its first part, then its second part from what the first left. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## The terms -/

/-- The mask "the match index is at least 0" (signed). -/
def geZero (x2 : IVec S8x80000 32) : IVec S8x80000 1 :=
  cmpi .sge x2 (broadcastInDim S8x80000 ![] bcast_S_S8x80000 (constantI S_ 32 0#32))

/-- The mask "the match index is not −2". -/
def notIgnored (x2 : IVec S8x80000 32) : IVec S8x80000 1 :=
  cmpi .ne x2 (broadcastInDim S8x80000 ![] bcast_S_S8x80000 (constantI S_ 32 4294967294#32))

/-- The match index clipped below at 0. -/
def clipped (x2 : IVec S8x80000 32) : IVec S8x80000 32 :=
  maxsi (broadcastInDim S8x80000 ![] bcast_S_S8x80000 (id (constantI S_ 32 0#32))) x2

/-- The clipped match index, a negative one wrapped by 100, as a column of one-element index vectors. -/
def gatherIdx (x2 : IVec S8x80000 32) : IVec S8x80000x1 32 :=
  shapeCast S8x80000x1 (select (cmpi .slt (clipped x2) (broadcastInDim S8x80000 ![] bcast_S_S8x80000 (constantI S_ 32 0#32))) (addi (clipped x2) (broadcastInDim S8x80000 ![] bcast_S_S8x80000 (constantI S_ 32 100#32))) (clipped x2)) shapeCasts_S8x80000_S8x80000x1

/-- The mask "the gather index lies in [0, 99]". -/
def inRange (x2 : IVec S8x80000 32) : IVec S8x80000 1 :=
  Host.reduce IntOp.andi (andi (cmpi .sge (gatherIdx x2) (broadcastInDim S8x80000x1 ![] bcast_S_S8x80000x1 (constantI S_ 32 0#32))) (cmpi .sle (gatherIdx x2) (broadcastInDim S8x80000x1 ![0, 1, 2] bcast_S1x1x1_S8x80000x1_0_1_2 (broadcastInDim S1x1x1 ![2] bcast_S1_S1x1x1_2 (constantI S1 32 99#32))))) (constantI S_ 1 1#1) reducesTo_S8x80000x1_S8x80000_d2 h_S_

/-- The matched label of every anchor: the label gathered at the clipped match index where that index lies in [0, 99], the fill word −2147483648 elsewhere. -/
def matched (x1 : IVec S8x100 32) (x2 : IVec S8x80000 32) : IVec S8x80000 32 :=
  select (inRange x2) (Host.gather gather_S8x100_S8x80000x1_S8x80000_n_1_0_0_1_2_11 x1 (gatherIdx x2)) (broadcastInDim S8x80000 ![] bcast_S_S8x80000 (constantI S_ 32 2147483648#32))

/-- The class target as a float, 1 or 0 at (image, anchor, class): the anchor's mask bit `v1` and "the class number equals the anchor's label `v5`". -/
def tgt (v1 : IVec S8x80000 1) (v5 : IVec S8x80000 32) : FVec F S8x80000x91 .f32 :=
  uitofp .f32 (andi (broadcastInDim S8x80000x91 ![0, 1, 2] bcast_S8x80000x1_S8x80000x91_0_1_2 (broadcastInDim S8x80000x1 ![0, 1] bcast_S8x80000_S8x80000x1_0_1 v1)) (cmpi .eq (broadcastInDim S8x80000x91 ![0, 1, 2] bcast_S1x1x91_S8x80000x91_0_1_2 (broadcastInDim S1x1x91 ![2] bcast_S91_S1x1x91_2 (iotaInDim S91 32 0))) (broadcastInDim S8x80000x91 ![0, 1, 2] bcast_S8x80000x1_S8x80000x91_0_1_2 (broadcastInDim S8x80000x1 ![0, 1] bcast_S8x80000_S8x80000x1_0_1 v5))))

/-- 1 / (1 + e^(−x)) at every logit. -/
def prob (x0 : FVec F S8x80000x91 .f32) : FVec F S8x80000x91 .f32 :=
  Host.divf (broadcastInDim S8x80000x91 ![] bcast_S_S8x80000x91 (constant S_ .f32 0x3F800000#32)) (addf (broadcastInDim S8x80000x91 ![] bcast_S_S8x80000x91 (constant S_ .f32 0x3F800000#32)) (Host.exp (Host.negf x0)))

/-- The focal loss of every logit: (¼·t + ¾·(1 − t)) · ((max(x, 0) − x·t) + log(1 + e^(−|x|))) · (1 − (p·t + (1 − p)·(1 − t)))^2, times the validity bit `v3` as a float; t is `tgt`, p is `prob`. -/
def lossT (x0 : FVec F S8x80000x91 .f32) (v1 v3 : IVec S8x80000 1) (v5 : IVec S8x80000 32) : FVec F S8x80000x91 .f32 :=
  mulf (mulf (mulf (addf (mulf (broadcastInDim S8x80000x91 ![] bcast_S_S8x80000x91 (constant S_ .f32 0x3E800000#32)) (tgt v1 v5)) (mulf (broadcastInDim S8x80000x91 ![] bcast_S_S8x80000x91 (constant S_ .f32 0x3F400000#32)) (subf (broadcastInDim S8x80000x91 ![] bcast_S_S8x80000x91 (constant S_ .f32 0x3F800000#32)) (tgt v1 v5)))) (addf (subf (maximumf x0 (broadcastInDim S8x80000x91 ![] bcast_S_S8x80000x91 (constant S_ .f32 0x00000000#32))) (mulf x0 (tgt v1 v5))) (Host.log1p (Host.exp (Host.negf (Host.absf x0)))))) (Host.powf (subf (broadcastInDim S8x80000x91 ![] bcast_S_S8x80000x91 (constant S_ .f32 0x3F800000#32)) (addf (mulf (prob x0) (tgt v1 v5)) (mulf (subf (broadcastInDim S8x80000x91 ![] bcast_S_S8x80000x91 (constant S_ .f32 0x3F800000#32)) (prob x0)) (subf (broadcastInDim S8x80000x91 ![] bcast_S_S8x80000x91 (constant S_ .f32 0x3F800000#32)) (tgt v1 v5))))) (broadcastInDim S8x80000x91 ![] bcast_S_S8x80000x91 (constant S_ .f32 0x40000000#32)))) (broadcastInDim S8x80000x91 ![0, 1, 2] bcast_S8x80000x1_S8x80000x91_0_1_2 (uitofp .f32 (broadcastInDim S8x80000x1 ![0, 1] bcast_S8x80000_S8x80000x1_0_1 v3)))

/-- The tail of the program on the per-image sums `p`: each divided by max(1, the number of anchors whose mask bit `v1` is set), the eight quotients summed, the sum divided by 8. -/
def tailT (p : FVec F S8 .f32) (v1 : IVec S8x80000 1) : FVec F S_ .f32 :=
  Host.divf (Host.reduceAdd (Host.divf p (sitofp .f32 (maxsi (broadcastInDim S8 ![] bcast_S_S8 (constantI S_ 32 1#32)) (Host.reduce IntOp.addi (extui 32 v1 natLt_1_32) (constantI S_ 32 0#32) reducesTo_S8x80000_S8_d1 h_S_)))) (constant S_ .f32 0x00000000#32) reducesTo_S8_S_d0 h_S_) (constant S_ .f32 0x41000000#32)

/-! ## The first piece, read back -/

section First
variable (V : Valuation τ sig (Elt F))

set_option maxRecDepth 8192 in
set_option maxHeartbeats 4000000 in
theorem W1_v1 : after W1 V (Proc.devRef .tc main_v1) = geZero (V (Proc.devRef .tc main_arg2)) := by
  after_results_simp <;> rfl
set_option maxRecDepth 8192 in
set_option maxHeartbeats 4000000 in
theorem W1_v3 : after W1 V (Proc.devRef .tc main_v3) = notIgnored (V (Proc.devRef .tc main_arg2)) := by
  after_results_simp <;> rfl
attribute [local irreducible] Host.reduce Host.gather in
set_option maxRecDepth 8192 in
set_option maxHeartbeats 4000000 in
theorem W1_v5 : after W1 V (Proc.devRef .tc main_v5) = matched (V (Proc.devRef .tc main_arg1)) (V (Proc.devRef .tc main_arg2)) := by
  after_results_simp <;> rfl
set_option maxRecDepth 8192 in
set_option maxHeartbeats 4000000 in
theorem W1_arg0 : after W1 V (Proc.devRef .tc main_arg0) = V (Proc.devRef .tc main_arg0) := by
  after_results_simp <;> rfl
set_option maxRecDepth 8192 in
set_option maxHeartbeats 4000000 in
theorem W1_arg1 : after W1 V (Proc.devRef .tc main_arg1) = V (Proc.devRef .tc main_arg1) := by
  after_results_simp <;> rfl
set_option maxRecDepth 8192 in
set_option maxHeartbeats 4000000 in
theorem W1_arg2 : after W1 V (Proc.devRef .tc main_arg2) = V (Proc.devRef .tc main_arg2) := by
  after_results_simp <;> rfl

end First

/-! ## The second piece, read back over any contents -/

section Second
variable (W : Valuation τ sig (Elt F))

set_option maxRecDepth 8192 in
set_option maxHeartbeats 4000000 in
theorem W2_v63 : after W2 W (Proc.devRef .tc main_v63)
    = tailT (Host.reduceAdd (lossT (W (Proc.devRef .tc main_arg0)) (W (Proc.devRef .tc main_v1)) (W (Proc.devRef .tc main_v3)) (W (Proc.devRef .tc main_v5)))
        (constant S_ .f32 0x00000000#32) reducesTo_S8x80000x91_S8_d1_2 h_S_) (W (Proc.devRef .tc main_v1)) := by
  after_results_simp <;> rfl
set_option maxRecDepth 8192 in
set_option maxHeartbeats 4000000 in
theorem W2_arg0 : after W2 W (Proc.devRef .tc main_arg0) = W (Proc.devRef .tc main_arg0) := by
  after_results_simp <;> rfl
set_option maxRecDepth 8192 in
set_option maxHeartbeats 4000000 in
theorem W2_arg1 : after W2 W (Proc.devRef .tc main_arg1) = W (Proc.devRef .tc main_arg1) := by
  after_results_simp <;> rfl
set_option maxRecDepth 8192 in
set_option maxHeartbeats 4000000 in
theorem W2_arg2 : after W2 W (Proc.devRef .tc main_arg2) = W (Proc.devRef .tc main_arg2) := by
  after_results_simp <;> rfl

end Second

/-! ## The whole line -/

/-- The number of foreground anchors of every image: the sum over the anchors of the mask bit "match index ≥ 0". -/
def nfg (x2 : IVec S8x80000 32) : IVec S8 32 :=
  Host.reduce IntOp.addi (extui 32 (cmpi .sge x2 (broadcastInDim S8x80000 ![] bcast_S_S8x80000 (constantI S_ 32 0#32))) natLt_1_32) (constantI S_ 32 0#32) reducesTo_S8x80000_S8_d1 h_S_

/-- The per-image sum, over anchors and classes, of the loss of every logit, at the extended reals. -/
def perImage (x0 : FVec Ideal S8x80000x91 .f32) (x1 : IVec S8x100 32) (x2 : IVec S8x80000 32) : FVec Ideal S8 .f32 :=
  Host.reduceAdd (lossT x0 (geZero x2) (notIgnored x2) (matched x1 x2)) (constant S_ .f32 0x00000000#32) reducesTo_S8x80000x91_S8_d1_2 h_S_

/-- The program's result: the per-image sums divided by max(1, foreground count), summed over the images, divided by 8. -/
def result (x0 : FVec Ideal S8x80000x91 .f32) (x1 : IVec S8x100 32) (x2 : IVec S8x80000 32) : FVec Ideal S_ .f32 :=
  Host.divf (Host.reduceAdd (Host.divf (perImage x0 x1 x2) (sitofp .f32 (maxsi (broadcastInDim S8 ![] bcast_S_S8 (constantI S_ 32 1#32)) (nfg x2)))) (constant S_ .f32 0x00000000#32) reducesTo_S8_S_d0 h_S_) (constant S_ .f32 0x41000000#32)

section Whole
variable (V : Valuation τ sig (Elt Ideal))

attribute [local irreducible] Host.reduce Host.reduceAdd in
/-- After the whole line the result buffer holds `result` of the three arguments' contents. -/
theorem ops_v63 : after ops V (Proc.devRef .tc main_v63) = result (V (Proc.devRef .tc main_arg0)) (V (Proc.devRef .tc main_arg1)) (V (Proc.devRef .tc main_arg2)) := by
  rw [ops_split, after_append, W2_v63, W1_arg0, W1_v1, W1_v3, W1_v5]
  rfl
theorem ops_arg0 : after ops V (Proc.devRef .tc main_arg0) = V (Proc.devRef .tc main_arg0) := by
  rw [ops_split, after_append, W2_arg0, W1_arg0]
theorem ops_arg1 : after ops V (Proc.devRef .tc main_arg1) = V (Proc.devRef .tc main_arg1) := by
  rw [ops_split, after_append, W2_arg1, W1_arg1]
theorem ops_arg2 : after ops V (Proc.devRef .tc main_arg2) = V (Proc.devRef .tc main_arg2) := by
  rw [ops_split, after_append, W2_arg2, W1_arg2]

end Whole

/-- On every device, at the extended reals, from any memory with zero counters: every weakly fair execution of the
    program terminates with the result buffer at `result` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v63) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v63).trans (ops_v63 (launchContents m c)),
      (h c main_arg0).trans (ops_arg0 (launchContents m c)),
      (h c main_arg1).trans (ops_arg1 (launchContents m c)),
      (h c main_arg2).trans (ops_arg2 (launchContents m c))⟩)
    (run_seq scopedRefs_eq scopedSems_eq defs main (fun _ => ops) main_eq (fun _ => ops_sub) m ρ)

end Cert.ReferenceIdeal.RefValue

end
-- ==== Proof.LibSumRuns.lean ====
/-
  Sums over an initial segment of the naturals, cut into consecutive runs of equal length.

  The first n * m naturals are the n runs m * k, m * k + 1, …, m * k + (m - 1), for k < n, one after the other.
  A sum over all of them is therefore the sum over the runs of the sums inside each run.  Only associativity and
  commutativity of + are used: the laws hold in every commutative additive monoid (on the extended reals no
  finiteness is asked for).  They are stated once over `Finset.range`, for functions of a natural, and once over
  `Fin`, for functions of a bounded index; the zero extension of a function on `Fin N` carries one form to the other.
-/
import Mathlib.Algebra.BigOperators.Fin
import Mathlib.Algebra.BigOperators.Group.Finset.Basic

open scoped BigOperators

namespace Cert.LibSumRuns

/-- A sum over the first n * m naturals is the sum over the n consecutive runs of length m of the sums over each
    run: run k holds the naturals m * k + r with r < m. -/
theorem sum_range_mul_runs {M : Type*} [AddCommMonoid M] (g : ℕ → M) (m n : ℕ) :
    ∑ i ∈ Finset.range (n * m), g i = ∑ k ∈ Finset.range n, ∑ r ∈ Finset.range m, g (m * k + r) := by
  induction n with
  | zero => rw [Nat.zero_mul, Finset.range_zero, Finset.sum_empty, Finset.sum_empty]
  | succ n ih =>
    rw [Nat.succ_mul, Finset.sum_range_add, ih, Finset.sum_range_succ, Nat.mul_comm n m]

/-- The zero extension of a function on `Fin N` to all naturals. -/
def zeroExt {M : Type*} [Zero M] {N : ℕ} (a : Fin N → M) (i : ℕ) : M := if h : i < N then a ⟨i, h⟩ else 0

/-- Below N the zero extension is the function itself. -/
theorem zeroExt_of_lt {M : Type*} [Zero M] {N : ℕ} (a : Fin N → M) (i : ℕ) (h : i < N) : zeroExt a i = a ⟨i, h⟩ :=
  dif_pos h

/-- A sum over `Fin N` is the sum of the zero extension over the first N naturals. -/
theorem sum_fin_eq_sum_range_zeroExt {M : Type*} [AddCommMonoid M] {N : ℕ} (a : Fin N → M) :
    ∑ l : Fin N, a l = ∑ i ∈ Finset.range N, zeroExt a i := by
  rw [Finset.sum_range]
  exact Finset.sum_congr rfl fun l _ => (zeroExt_of_lt a l.val l.isLt).symm

/-- The same law over bounded indices: for N = n * m, a sum over `Fin N` is the sum over the n runs of the sums
    over the m positions of each run, position r of run k being the index m * k + r (any proof `hb` of its
    bound will do). -/
theorem sum_fin_mul_runs {M : Type*} [AddCommMonoid M] {N : ℕ} (n m : ℕ) (hN : N = n * m) (a : Fin N → M)
    (hb : ∀ (k : Fin n) (r : Fin m), m * k.val + r.val < N) :
    ∑ l : Fin N, a l = ∑ k : Fin n, ∑ r : Fin m, a ⟨m * k.val + r.val, hb k r⟩ := by
  subst hN
  rw [sum_fin_eq_sum_range_zeroExt, sum_range_mul_runs, Finset.sum_range]
  refine Finset.sum_congr rfl fun k _ => ?_
  rw [Finset.sum_range]
  exact Finset.sum_congr rfl fun r _ => zeroExt_of_lt a _ (hb k r)

end Cert.LibSumRuns
-- ==== Proof.RefValue.lean ====
/-
  The reference program's per-image sum and its matched labels, read element by element.

  At the extended reals the host's float sum over a set of axes is, at each index of the result, the initial value
  plus the sum of the operand over the indices that drop to it.  For the tensor of losses over (image, anchor,
  class), reduced over anchors and classes, the indices that drop to image b are exactly the triples (b, a, c):
  the image of the pairs (a, c) under an injection.  So the per-image sum is the double sum over anchors and
  classes; the initial value is the zero word, which is 0.  The 80000 anchors are then cut into 16 consecutive
  runs of 5000.

  Each element of the tensor of losses is read through the pointwise operations, which act element by element, and
  through the broadcasts: a scalar constant is the same everywhere; a tensor over (image, anchor), broadcast first
  to (image, anchor, 1) and then along the class axis, is read at (b, a, c) at (b, a); the class numbers 0 … 90,
  broadcast along images and anchors, are read at (b, a, c) as the word of c.  What is left is the arithmetic
  spelling of the focal loss of one logit, at the target bit "match index ≥ 0 and class number = matched label"
  and the validity bit "match index ≠ −2".
-/
import proofs.«177885_j12893491822713_2_alg».proof.Proof.RefRun
import proofs.«177885_j12893491822713_2_alg».proof.Proof.Elem
import proofs.«177885_j12893491822713_2_alg».proof.Proof.Tiles
import proofs.«177885_j12893491822713_2_alg».proof.Proof.LibSumRuns
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-! ## Broadcasts read at an index -/

/-- A tensor over (image, anchor, 1) broadcast along the class axis is read at (b, a, c) at (b, a, 0). -/
theorem bcLast {α : Type} (y : S8x80000x1.Idx → α) (b : Fin 8) (a : Fin 80000) (c : Fin 91) :
    broadcastInDim S8x80000x91 ![0, 1, 2] bcast_S8x80000x1_S8x80000x91_0_1_2 y (ix3 b a c) = y (ix3 b a (0 : Fin 1)) :=
  broadcastInDim_apply ![0, 1, 2] bcast_S8x80000x1_S8x80000x91_0_1_2 y (ix3 b a c) (ix3 b a (0 : Fin 1))
    (fun d => match d with | ⟨0, _⟩ => rfl | ⟨1, _⟩ => rfl | ⟨2, _⟩ => rfl)

/-- A tensor over (image, anchor) given a trailing unit axis is read at (b, a, 0) at (b, a). -/
theorem bcCol {α : Type} (v : S8x80000.Idx → α) (b : Fin 8) (a : Fin 80000) :
    broadcastInDim S8x80000x1 ![0, 1] bcast_S8x80000_S8x80000x1_0_1 v (ix3 b a (0 : Fin 1)) = v (ix2 b a) :=
  broadcastInDim_apply ![0, 1] bcast_S8x80000_S8x80000x1_0_1 v (ix3 b a (0 : Fin 1)) (ix2 b a)
    (fun d => match d with | ⟨0, _⟩ => rfl | ⟨1, _⟩ => rfl)

/-- The class numbers 0 … 90, broadcast along images and anchors, are read at (b, a, c) as the word of c. -/
theorem bcIota (b : Fin 8) (a : Fin 80000) (c : Fin 91) :
    broadcastInDim S8x80000x91 ![0, 1, 2] bcast_S1x1x91_S8x80000x91_0_1_2 (broadcastInDim S1x1x91 ![2] bcast_S91_S1x1x91_2 (iotaInDim S91 32 0)) (ix3 b a c) = BitVec.ofNat 32 c.val :=
  (broadcastInDim_apply ![0, 1, 2] bcast_S1x1x91_S8x80000x91_0_1_2
      (broadcastInDim S1x1x91 ![2] bcast_S91_S1x1x91_2 (iotaInDim S91 32 0)) (ix3 b a c) (ix3 (0 : Fin 1) (0 : Fin 1) c)
      (fun d => match d with | ⟨0, _⟩ => rfl | ⟨1, _⟩ => rfl | ⟨2, _⟩ => rfl)).trans
    ((broadcastInDim_apply ![2] bcast_S91_S1x1x91_2 (iotaInDim S91 32 0) (ix3 (0 : Fin 1) (0 : Fin 1) c) (ix1 c)
      (fun d => match d with | ⟨0, _⟩ => rfl)).trans rfl)

/-! ## One element of the tensor of losses -/

/-- The focal loss of one logit `x` at a target value `t` and a validity value `v`, both already floats. -/
def lossOf (x t v : Ideal .f32) : Ideal .f32 :=
  FloatOps.mulf
    (FloatOps.mulf
      (FloatOps.mulf
        (FloatOps.addf (FloatOps.mulf (FloatOps.ofBits .f32 0x3E800000#32) t)
          (FloatOps.mulf (FloatOps.ofBits .f32 0x3F400000#32) (FloatOps.subf (FloatOps.ofBits .f32 0x3F800000#32) t)))
        (FloatOps.addf
          (FloatOps.subf (FloatOps.maximumf x (FloatOps.ofBits .f32 0x00000000#32)) (FloatOps.mulf x t))
          (FloatOps.hostUnary .log1p (FloatOps.hostUnary .exp (FloatOps.hostNegf (FloatOps.hostAbsf x))))))
      (FloatOps.hostPowf
        (FloatOps.subf (FloatOps.ofBits .f32 0x3F800000#32)
          (FloatOps.addf (FloatOps.mulf (Cert.Focal.sig x) t)
            (FloatOps.mulf (FloatOps.subf (FloatOps.ofBits .f32 0x3F800000#32) (Cert.Focal.sig x))
              (FloatOps.subf (FloatOps.ofBits .f32 0x3F800000#32) t))))
        (FloatOps.ofBits .f32 0x40000000#32)))
    v

/-- The arithmetic spelling of the loss is `lossOf` at the two bits as floats. -/
theorem lossArith_eq (x : Ideal .f32) (tb vb : BitVec 1) :
    Cert.Focal.lossArith x tb vb = lossOf x (FloatOps.uitofp .f32 tb) (FloatOps.uitofp .f32 vb) := rfl

/-- The pointwise operations act element by element, and a scalar constant is the same everywhere. -/
theorem lossT_pt (x0 : FVec Ideal S8x80000x91 .f32) (v1 v3 : IVec S8x80000 1) (v5 : IVec S8x80000 32) (i : S8x80000x91.Idx) :
    lossT x0 v1 v3 v5 i = lossOf (x0 i) (tgt v1 v5 i) (broadcastInDim S8x80000x91 ![0, 1, 2] bcast_S8x80000x1_S8x80000x91_0_1_2 (uitofp .f32 (broadcastInDim S8x80000x1 ![0, 1] bcast_S8x80000_S8x80000x1_0_1 v3)) i) := rfl

/-- The class target at (b, a, c): the anchor's mask bit and "the class number is the anchor's label". -/
theorem tgt_apply (v1 : IVec S8x80000 1) (v5 : IVec S8x80000 32) (b : Fin 8) (a : Fin 80000) (c : Fin 91) :
    tgt (F := Ideal) v1 v5 (ix3 b a c)
      = FloatOps.uitofp .f32 (IntOp.andi (v1 (ix2 b a)) (IntOp.cmpi .eq (BitVec.ofNat 32 c.val) (v5 (ix2 b a)))) := by
  show FloatOps.uitofp .f32 (IntOp.andi (broadcastInDim S8x80000x91 ![0, 1, 2] bcast_S8x80000x1_S8x80000x91_0_1_2 (broadcastInDim S8x80000x1 ![0, 1] bcast_S8x80000_S8x80000x1_0_1 v1) (ix3 b a c))
    (IntOp.cmpi .eq (broadcastInDim S8x80000x91 ![0, 1, 2] bcast_S1x1x91_S8x80000x91_0_1_2 (broadcastInDim S1x1x91 ![2] bcast_S91_S1x1x91_2 (iotaInDim S91 32 0)) (ix3 b a c)) (broadcastInDim S8x80000x91 ![0, 1, 2] bcast_S8x80000x1_S8x80000x91_0_1_2 (broadcastInDim S8x80000x1 ![0, 1] bcast_S8x80000_S8x80000x1_0_1 v5) (ix3 b a c)))) = _
  rw [bcLast, bcCol, bcIota, bcLast, bcCol]

/-- The validity factor at (b, a, c): the anchor's validity bit as a float. -/
theorem valid_apply (v3 : IVec S8x80000 1) (b : Fin 8) (a : Fin 80000) (c : Fin 91) :
    broadcastInDim S8x80000x91 ![0, 1, 2] bcast_S8x80000x1_S8x80000x91_0_1_2 (uitofp (F := Ideal) .f32 (broadcastInDim S8x80000x1 ![0, 1] bcast_S8x80000_S8x80000x1_0_1 v3)) (ix3 b a c) = FloatOps.uitofp .f32 (v3 (ix2 b a)) := by
  rw [bcLast]
  show FloatOps.uitofp .f32 (broadcastInDim S8x80000x1 ![0, 1] bcast_S8x80000_S8x80000x1_0_1 v3 (ix3 b a (0 : Fin 1))) = _
  rw [bcCol]

/-- One element of the tensor of losses is the arithmetic spelling of the loss of that logit. -/
theorem lossT_apply (x0 : FVec Ideal S8x80000x91 .f32) (v1 v3 : IVec S8x80000 1) (v5 : IVec S8x80000 32)
    (b : Fin 8) (a : Fin 80000) (c : Fin 91) :
    lossT x0 v1 v3 v5 (ix3 b a c)
      = Cert.Focal.lossArith (x0 (ix3 b a c))
          (IntOp.andi (v1 (ix2 b a)) (IntOp.cmpi .eq (BitVec.ofNat 32 c.val) (v5 (ix2 b a)))) (v3 (ix2 b a)) := by
  rw [lossT_pt, tgt_apply, valid_apply, lossArith_eq]

/-! ## The indices that drop to one image -/

/-- Dropping anchor and class of (b, a, c) leaves b; -/
theorem drop_ix3 (b : Fin 8) (a : Fin 80000) (c : Fin 91) : reducesTo_S8x80000x91_S8_d1_2.drop (ix3 b a c) = ix1 b := by
  funext d
  match d with
  | ⟨0, _⟩ => rfl

/-- and an index that drops to b is (b, its anchor, its class); -/
theorem eq_ix3_of_drop (i : S8x80000x91.Idx) (b : Fin 8) (h : reducesTo_S8x80000x91_S8_d1_2.drop i = ix1 b) :
    i = ix3 (n0 := 8) (n1 := 80000) (n2 := 91) b (i 1) (i 2) := by
  have h0 : i 0 = b := congrFun h ⟨0, by decide⟩
  funext d
  match d with
  | ⟨0, _⟩ => exact h0
  | ⟨1, _⟩ => rfl
  | ⟨2, _⟩ => rfl

/-- so the indices the sum at image b runs over are the (b, a, c). -/
def ixEmb (b : Fin 8) : Fin 80000 × Fin 91 ↪ S8x80000x91.Idx :=
  ⟨fun p => ix3 b p.1 p.2, fun p q h => Prod.ext (congrFun h 1) (congrFun h 2)⟩

theorem filter_drop (b : Fin 8) :
    Finset.univ.filter (fun i : S8x80000x91.Idx => reducesTo_S8x80000x91_S8_d1_2.drop i = ix1 b) = Finset.univ.map (ixEmb b) := by
  ext i
  simp only [Finset.mem_filter, Finset.mem_univ, true_and, Finset.mem_map, ixEmb]
  exact ⟨fun h => ⟨(i 1, i 2), (eq_ix3_of_drop i b h).symm⟩, fun ⟨p, hp⟩ => hp ▸ drop_ix3 b p.1 p.2⟩

/-- The per-image sum is the double sum over anchors and classes of the tensor of losses. -/
theorem perImage_sum (x0 : FVec Ideal S8x80000x91 .f32) (x1 : IVec S8x100 32) (x2 : IVec S8x80000 32) (b : Fin 8) :
    perImage x0 x1 x2 (ix1 b)
      = ∑ a : Fin 80000, ∑ c : Fin 91, lossT x0 (geZero x2) (notIgnored x2) (matched x1 x2) (ix3 b a c) := by
  show Ideal.ofBits .f32 0x00000000#32
      + ∑ i ∈ Finset.univ.filter (fun i : S8x80000x91.Idx => reducesTo_S8x80000x91_S8_d1_2.drop i = ix1 b),
          lossT x0 (geZero x2) (notIgnored x2) (matched x1 x2) i = _
  rw [filter_drop, Finset.sum_map, Ideal.ofBits_zero_f32, zero_add, Fintype.sum_prod_type]
  rfl

/-! ## The reading -/

/-- The per-image sum of the reference, over the 16 runs of 5000 anchors and the 91 classes, of the arithmetic
    spelling of the loss of each logit. -/
theorem perImage_apply (x0 : FVec Ideal S8x80000x91 .f32) (x1 : IVec S8x100 32) (x2 : IVec S8x80000 32) (b : Fin 8) :
    perImage x0 x1 x2 (ValueIdx.ix1 b) = ∑ a : Fin 16, ∑ r : Fin 5000, ∑ c : Fin 91,
      Cert.Focal.lossArith (x0 (ValueIdx.ix3 b (Cert.Focal.anchor a r) c))
        (IntOp.andi (IntOp.cmpi .sge (x2 (ValueIdx.ix2 b (Cert.Focal.anchor a r))) 0#32)
          (IntOp.cmpi .eq (BitVec.ofNat 32 c.val) (matched x1 x2 (ValueIdx.ix2 b (Cert.Focal.anchor a r)))))
        (IntOp.cmpi .ne (x2 (ValueIdx.ix2 b (Cert.Focal.anchor a r))) 4294967294#32) := by
  rw [perImage_sum, Cert.LibSumRuns.sum_fin_mul_runs 16 5000 (by norm_num) _ (fun k r => (Cert.Focal.anchor k r).isLt)]
  refine Finset.sum_congr rfl fun a _ => Finset.sum_congr rfl fun r _ => Finset.sum_congr rfl fun c _ => ?_
  exact lossT_apply x0 (geZero x2) (notIgnored x2) (matched x1 x2) b (Cert.Focal.anchor a r) c

end Cert.ReferenceIdeal.RefValue

end
-- ==== Proof.ElemEq.lean ====
/-
  The two spellings of the focal loss of one logit agree (Elem.lean states both).

  Two independent facts.

  THE BITS.  One program compares the class number c with the anchor's code enc(cls, mi) and reads validity
  as "code ≠ −2"; the other compares c with the matched label cls under "mi ≥ 0" and reads validity as
  "mi ≠ −2".  If mi ≥ 0 (signed) the code IS cls, the conjunction with the true bit changes nothing, mi is not
  −2 because −2 is negative, and cls ≠ −2 is the hypothesis.  If mi < 0 the conjunction is 0; the code is −1
  or −2, and a class number below 91 is neither, so the comparison with the code is 0 as well; and the code
  is −2 exactly when mi is.  Hence both programs feed the SAME target bit t and the SAME validity bit v.

  THE REALS.  For a real x put p = (1 + e^(−x))⁻¹, L = log(1 + e^(−|x|)) with |x| = max(x, −x), M = max(x, 0).
  Every subterm is then a real number (1 + e^r > 0, so its logarithm is real; 1 + e^(−x) ≠ 0, so the quotient
  is a product with the inverse), and the claim is the real identity
      t = 1:  (¼·1 + ¾·(1 − 1)) · ((M − x·1) + L) · (1 − (p·1 + (1 − p)·(1 − 1)))² = ¼ · ((M + L) − x) · (1 − p) · (1 − p)
      t = 0:  (¼·0 + ¾·(1 − 0)) · ((M − x·0) + L) · (1 − (p·0 + (1 − p)·(1 − 0)))² = ¾ · (M + L) · p · p
  where the real power with exponent 2 is the square.  The validity factor is the same number 0 or 1 on both
  sides: a bit zero-extended to a word and read signed is the bit read unsigned.
-/
import proofs.«177885_j12893491822713_2_alg».proof.Proof.Elem
import Idealize.ShloMosaic.Lib.ValueIdx

noncomputable section

namespace Cert.Focal.ElemEq

open Idealize.ShloMosaic
open Idealize.ShloMosaic.ValueIdx

/-! ### The bits -/

/-- A class number below 91 is, as a 32-bit word, neither −1 nor −2: its value is below 91. -/
theorem ofNat_ne (c : ℕ) (hc : c < 91) :
    BitVec.ofNat 32 c ≠ 4294967295#32 ∧ BitVec.ofNat 32 c ≠ 4294967294#32 := by
  constructor <;> (intro h; have := congrArg BitVec.toNat h; simp at this; omega)

/-- The equality test of two different words is the bit 0; their inequality test is the bit 1. -/
theorem cmpi_eq_of_ne {a b : BitVec 32} (h : a ≠ b) : IntOp.cmpi .eq a b = 0#1 := by
  show BitVec.ofBool (a == b) = 0#1
  rw [beq_eq_false_iff_ne.mpr h]; rfl
theorem cmpi_ne_of_ne {a b : BitVec 32} (h : a ≠ b) : IntOp.cmpi .ne a b = 1#1 := by
  show BitVec.ofBool (a != b) = 1#1
  rw [bne_iff_ne.mpr h]; rfl

/-- On one bit, "0 and b" is 0 and "1 and b" is b. -/
theorem andi_zero_left (b : BitVec 1) : IntOp.andi 0#1 b = 0#1 := BitVec.zero_and
theorem andi_one_left (b : BitVec 1) : IntOp.andi 1#1 b = b := by
  rcases BitVec.eq_zero_or_eq_one b with e | e <;> rw [e] <;> decide

/-- The two programs' target bits agree, and so do their validity bits. -/
theorem bits_eq (c : ℕ) (hc : c < 91) (cls mi : BitVec 32)
    (hcls : IntOp.cmpi .sge mi 0#32 = 1#1 → cls ≠ 4294967294#32) :
    IntOp.andi (IntOp.cmpi .sge mi 0#32) (IntOp.cmpi .eq (BitVec.ofNat 32 c) cls)
        = IntOp.cmpi .eq (BitVec.ofNat 32 c) (enc cls mi)
      ∧ IntOp.cmpi .ne mi 4294967294#32 = IntOp.cmpi .ne (enc cls mi) 4294967294#32 := by
  by_cases h : IntOp.cmpi .sge mi 0#32 = 1#1
  · -- mi ≥ 0: the code is cls; −2 is negative, so mi ≠ −2; cls ≠ −2 by hypothesis.
    have hmi : mi ≠ 4294967294#32 := by
      intro hm; rw [hm] at h; exact absurd h (by decide)
    have henc : enc cls mi = cls := by rw [enc, h, select_one]
    rw [henc, h, cmpi_ne_of_ne hmi, cmpi_ne_of_ne (hcls h)]
    exact ⟨andi_one_left _, rfl⟩
  · -- mi < 0: the conjunction is 0; the code is −2 when mi = −2 and −1 otherwise, never the class number.
    have h0 := eq_zero_of_ne_one h
    rw [enc, h0, select_zero]
    rcases BitVec.eq_zero_or_eq_one (IntOp.cmpi .ne mi 4294967294#32) with e | e <;> rw [e]
    · rw [select_zero, cmpi_eq_of_ne (ofNat_ne c hc).2, andi_zero_left]; exact ⟨rfl, by decide⟩
    · rw [select_one, cmpi_eq_of_ne (ofNat_ne c hc).1, andi_zero_left]; exact ⟨rfl, by decide⟩

/-! ### The five literals: 0, 1, 2, ¼, ¾ are dyadic, so their patterns denote exactly these reals -/

theorem lit_zero : Ideal.ofBits .f32 0x00000000#32 = ((0 : ℝ) : EReal) := Ideal.ofBits_zero_f32
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_quarter : Ideal.ofBits .f32 0x3E800000#32 = ((1 / 4 : ℝ) : EReal) := by
  simp [Ideal.ofBits, Ideal.ieee, -EReal.coe_mul]; norm_num
theorem lit_three_quarters : Ideal.ofBits .f32 0x3F400000#32 = ((3 / 4 : ℝ) : EReal) := by
  simp [Ideal.ofBits, Ideal.ieee, -EReal.coe_mul]; norm_num

/-! ### The reals -/

/-- The coercion of reals into the extended reals is monotone, so it commutes with max. -/
theorem coe_max (a b : ℝ) : ((max a b : ℝ) : EReal) = max (a : EReal) (b : EReal) :=
  EReal.coe_strictMono.monotone.map_max

/-- log(1 + e^r) for a real r: the argument of the logarithm is positive, so the value is a real. -/
theorem log1p_exp_coe (r : ℝ) :
    Ideal.log1p (Ideal.exp (r : EReal)) = ((Real.log (1 + Real.exp r) : ℝ) : EReal) := by
  have hpos : ¬ (1 + Real.exp r ≤ 0) := not_le.mpr (by positivity)
  rw [Ideal.log1p, Ideal.exp_coe, ← EReal.coe_one, ← EReal.coe_add, Ideal.log_coe, if_neg hpos]

/-- max(x, 0) + log(1 + e^(0 − |x|)) for a real x is that real expression (0 − |x| = −|x|). -/
theorem base_coe (x : ℝ) :
    base (x : EReal) = ((max x 0 + Real.log (1 + Real.exp (-(max x (-x)))) : ℝ) : EReal) := by
  simp only [base, Ideal.addf_def, Ideal.maximumf_def, Ideal.ofBits_def, Ideal.ofBits_zero_f32, Ideal.log1p_def,
    Ideal.exp_def, Ideal.subf_def, Ideal.absf_def]
  rw [zero_sub, ← EReal.coe_neg x, ← coe_max, ← EReal.coe_neg, log1p_exp_coe, ← EReal.coe_zero, ← coe_max,
    ← EReal.coe_add]

/-- The quotient 1 / (1 + e^(−x)) for a real x is the inverse (1 + e^(−x))⁻¹: the denominator is not 0. -/
theorem sig_coe (x : ℝ) : sig (x : EReal) = (((1 + Real.exp (-x))⁻¹ : ℝ) : EReal) := by
  have hne : (1 + Real.exp (-x)) ≠ 0 := by positivity
  simp only [sig, Ideal.hostDivf_def, Ideal.addf_def, Ideal.ofBits_def, lit_one, Ideal.hostUnary_exp_def,
    Ideal.hostNegf_def, Ideal.negf_def]
  rw [← EReal.coe_neg, Ideal.exp_coe, ← EReal.coe_add, Ideal.div_coe hne, ← EReal.coe_mul, one_mul, one_div]

/-- The bit 1 read as an unsigned number is the real 1; the bit 0 is the real 0. -/
theorem uitofp_bit_one : FloatOps.uitofp (F := Ideal) .f32 (1#1 : BitVec 1) = ((1 : ℝ) : EReal) := by
  show (((1#1 : BitVec 1).toNat : ℝ) : EReal) = _
  simp
theorem uitofp_bit_zero : FloatOps.uitofp (F := Ideal) .f32 (0#1 : BitVec 1) = ((0 : ℝ) : EReal) := by
  show (((0#1 : BitVec 1).toNat : ℝ) : EReal) = _
  simp

/-- A bit zero-extended to a word and read signed is the bit read unsigned: both are 0 or 1. -/
theorem valid_sel (v : BitVec 1) :
    FloatOps.sitofp (F := Ideal) .f32 (v.setWidth 32) = FloatOps.uitofp (F := Ideal) .f32 v := by
  show ((((v.setWidth 32).toInt : ℤ) : ℝ) : EReal) = (((v.toNat : ℕ) : ℝ) : EReal)
  rcases BitVec.eq_zero_or_eq_one v with h | h <;> subst h <;> simp

/-- Target bit 1: p_t = p and α_t = ¼, so the arithmetic spelling is ¼ · (base − x) · (1 − p) · (1 − p). -/
theorem arith_eq_sel_one (x : ℝ) (v : BitVec 1) : lossArith (x : EReal) 1#1 v = lossSel (x : EReal) 1#1 v := by
  rw [lossArith, lossSel, select_one, valid_sel, uitofp_bit_one]
  congr 1
  simp only [Ideal.mulf_def, Ideal.addf_def, Ideal.subf_def, Ideal.maximumf_def, Ideal.ofBits_def, lit_zero, lit_one,
    lit_two, lit_quarter, lit_three_quarters, Ideal.hostUnary_log1p_def, Ideal.hostUnary_exp_def, Ideal.hostNegf_def,
    Ideal.negf_def, Ideal.hostAbsf_def, Ideal.absf_def, Ideal.hostPowf_def, Ideal.logistic_def, Ideal.logistic_coe,
    sig_coe, base_coe]
  simp only [← EReal.coe_neg, ← coe_max, log1p_exp_coe, ← EReal.coe_mul, ← EReal.coe_add, ← EReal.coe_sub,
    Ideal.pow_coe_coe]
  congr 1
  rw [Real.rpow_eq_pow, Real.rpow_two]
  ring

/-- Target bit 0: p_t = 1 − p, so 1 − p_t = p, and α_t = ¾: the arithmetic spelling is ¾ · base · p · p. -/
theorem arith_eq_sel_zero (x : ℝ) (v : BitVec 1) : lossArith (x : EReal) 0#1 v = lossSel (x : EReal) 0#1 v := by
  rw [lossArith, lossSel, select_zero, valid_sel, uitofp_bit_zero]
  congr 1
  simp only [Ideal.mulf_def, Ideal.addf_def, Ideal.subf_def, Ideal.maximumf_def, Ideal.ofBits_def, lit_zero, lit_one,
    lit_two, lit_quarter, lit_three_quarters, Ideal.hostUnary_log1p_def, Ideal.hostUnary_exp_def, Ideal.hostNegf_def,
    Ideal.negf_def, Ideal.hostAbsf_def, Ideal.absf_def, Ideal.hostPowf_def, Ideal.logistic_def, Ideal.logistic_coe,
    sig_coe, base_coe]
  simp only [← EReal.coe_neg, ← coe_max, log1p_exp_coe, ← EReal.coe_mul, ← EReal.coe_add, ← EReal.coe_sub,
    Ideal.pow_coe_coe]
  congr 1
  rw [Real.rpow_eq_pow, Real.rpow_two]
  ring

/-- On the same bits the two spellings agree at every real logit: a bit is 0 or 1. -/
theorem arith_eq_sel (x : ℝ) (t v : BitVec 1) : lossArith (x : EReal) t v = lossSel (x : EReal) t v := by
  rcases BitVec.eq_zero_or_eq_one t with e | e <;> rw [e]
  · exact arith_eq_sel_zero x v
  · exact arith_eq_sel_one x v

end Cert.Focal.ElemEq

namespace Cert.Focal

open Idealize.ShloMosaic

/-- The arithmetic spelling on (target under "mi ≥ 0", validity "mi ≠ −2") is the selecting spelling on
    (target against the code, validity "code ≠ −2"): the bits agree, and on equal bits so do the reals. -/
theorem lossArith_eq_lossSel (x : ℝ) (c : ℕ) (hc : c < 91) (cls mi : BitVec 32)
    (hcls : IntOp.cmpi .sge mi 0#32 = 1#1 → cls ≠ 4294967294#32) :
    lossArith (x : EReal) (IntOp.andi (IntOp.cmpi .sge mi 0#32) (IntOp.cmpi .eq (BitVec.ofNat 32 c) cls))
        (IntOp.cmpi .ne mi 4294967294#32)
      = lossSel (x : EReal) (IntOp.cmpi .eq (BitVec.ofNat 32 c) (enc cls mi))
        (IntOp.cmpi .ne (enc cls mi) 4294967294#32) := by
  obtain ⟨ht, hv⟩ := ElemEq.bits_eq c hc cls mi hcls
  rw [← ht, ← hv]
  exact ElemEq.arith_eq_sel x _ _

end Cert.Focal

end
-- ==== Proof.PreFacts.lean ====
import proofs.«177885_j12893491822713_2_alg».proof.Pre_finite_inputs
import Idealize.ShloMosaic.Lib.ReduceAll
import Idealize.ShloMosaic.PureOps.Ideal.Laws
import Idealize.ShloMosaic.Lib.ValueIdx

/-!
  The precondition `finite_inputs`, decoded into element facts at the extended-real model.

  The predicate is a conjunction of three "for all elements" tests, each an `and`-reduction over every axis
  from the value 1: every |logit| is strictly below +∞; every label is ≥ 0 (signed); every label is < 91 (signed).
  If the conjunction is 1 then each test is 1, and a test that is 1 holds at every element.

  * |x| < +∞ on the extended reals, with |x| = max x (-x), excludes x = ⊤ and x = ⊥ (whose negation is ⊤):
    x is the image of a real number.
  * 0 ≤ v signed excludes the word 4294967294, whose signed value is −2.
-/

noncomputable section

namespace Cert.Focal

open Idealize.ShloMosaic

/-- A rank-0 shape has exactly one index. -/
private instance subsingletonIdx0 : Subsingleton Cert.Pre_finite_inputs.S_.Idx := ⟨fun a b => funext fun d => d.elim0⟩

/-- The f32 pattern 0x7F800000 (sign 0, exponent all ones, fraction 0) denotes +∞. -/
private theorem ofBits_inf : Ideal.ofBits .f32 0x7F800000#32 = (⊤ : EReal) := by
  simp [Ideal.ofBits, Ideal.ieee]

/-- An extended real whose absolute value max x (-x) is strictly below ⊤ is a real number. -/
private theorem real_of_abs_lt_top (x : EReal) (hx : Ideal.cmp .olt (max x (-x)) (⊤ : EReal) = 1#1) : ∃ r : ℝ, x = (r : EReal) := by
  induction x using EReal.rec with
  | bot => exact absurd hx (by simp [Ideal.cmp])
  | top => exact absurd hx (by simp [Ideal.cmp])
  | coe r => exact ⟨r, rfl⟩

/-- A word that is ≥ 0 signed is not the word of −2. -/
private theorem ne_neg_two (v : BitVec 32) (hv : IntOp.cmpi .sge v 0#32 = 1#1) : v ≠ 4294967294#32 := by
  rintro rfl
  revert hv
  decide

theorem facts_of_pre [Cert.Pre_finite_inputs.Facts] (x0 : FVec Ideal Cert.Pre_finite_inputs.S8x80000x91 .f32)
    (x1 : IVec Cert.Pre_finite_inputs.S8x100 32) (x2 : IVec Cert.Pre_finite_inputs.S8x80000 32)
    (h : Cert.Pre_finite_inputs.fn (F := Ideal) x0 x1 x2 = fun _ => 1#1) :
    (∀ i, ∃ r : ℝ, x0 i = (r : EReal)) ∧ (∀ j, x1 j ≠ 4294967294#32) := by
  have e := congrFun h ValueIdx.ix0
  unfold Cert.Pre_finite_inputs.fn at e
  dsimp only at e
  -- the conjunction of the three tests is 1: the first two are 1
  obtain ⟨e12, -⟩ := IntOp.andi_eq_one.1 e
  obtain ⟨e1, e2⟩ := IntOp.andi_eq_one.1 e12
  refine ⟨fun i => ?_, fun j => ?_⟩
  · -- the test at element i: |x0 i| < the value of the pattern 0x7F800000
    have hi : Ideal.cmp .olt (max (x0 i) (-(x0 i))) (Ideal.ofBits .f32 0x7F800000#32) = 1#1 :=
      Host.reduce_andi_all _ _ _ _ _ e1 i
    rw [ofBits_inf] at hi
    exact real_of_abs_lt_top _ hi
  · -- the test at element j: 0 ≤ x1 j signed
    have hj : IntOp.cmpi .sge (x1 j) 0#32 = 1#1 := Host.reduce_andi_all _ _ _ _ _ e2 j
    exact ne_neg_two _ hj

end Cert.Focal

end
-- ==== Proof.Bridge.lean ====
/-
  The two programs compute the same number.

  Both end with the same three operations applied to (per-image sums, per-image divisors), so it is enough that the sums
  agree image by image and the divisors agree image by image.

  THE SUMS.  Both are the sum over the 16 tiles, 5000 rows and 91 classes of the loss of the logit at
  (b, 5000·a + r, c); one program in the selecting spelling on the anchor's code, the other in the arithmetic spelling
  on the anchor's matched label and match index.  The integer prelude that produces the matched labels is the same
  composition of the same operations in both programs.  Term by term the two spellings agree (ElemEq) provided the
  logit is a real number — the precondition — and the matched label of an anchor whose match index is ≥ 0 is not the
  word −2: a matched label is the fill word −2³¹ or one of the labels, and the precondition makes every label ≥ 0.
  Without that the claim is false: an anchor matched to a label −2 is kept by one program and dropped by the other.

  THE DIVISORS.  max(1.0, n read as a float) against (max(1, n) signed) read as a float, n the same count.
-/
import proofs.«177885_j12893491822713_2_alg».proof.Proof.HostTail
import proofs.«177885_j12893491822713_2_alg».proof.Proof.RefValue
import proofs.«177885_j12893491822713_2_alg».proof.Proof.ElemEq
import proofs.«177885_j12893491822713_2_alg».proof.Proof.PreFacts

noncomputable section

namespace Cert.Focal

open Idealize.ShloMosaic Idealize.ShloMosaic.ValueIdx
open Cert.KernelIdeal.Acc (kerSum codeArr matchedK nfgK denK tailK kernelResult)
open Cert.ReferenceIdeal.RefValue (matched nfg perImage result)

/-- The divisor of an image: the larger of 1.0 and the count read as a float is the float reading of the larger of 1 and
    the count (signed), because reading a signed word as a real is monotone. -/
theorem den_eq (n : BitVec 32) :
    FloatOps.maximumf (F := Ideal) (FloatOps.ofBits (F := Ideal) .f32 0x3F800000#32) (FloatOps.sitofp (F := Ideal) .f32 n)
      = FloatOps.sitofp (F := Ideal) .f32 (IntOp.maxsi 1#32 n) := by
  show max (Ideal.ofBits .f32 0x3F800000#32) (((n.toInt : ℤ) : ℝ) : EReal) = ((((IntOp.maxsi 1#32 n).toInt : ℤ) : ℝ) : EReal)
  rw [ElemEq.lit_one, ← ElemEq.coe_max]
  congr 1
  unfold IntOp.maxsi
  have e1 : (1#32 : BitVec 32).toInt = 1 := by decide
  by_cases h : n.slt 1#32
  · rw [if_pos h]
    have h' : n.toInt < (1#32 : BitVec 32).toInt := by simpa [BitVec.slt] using h
    rw [e1] at h' ⊢
    have : ((n.toInt : ℤ) : ℝ) ≤ 1 := by exact_mod_cast (le_of_lt h')
    rw [max_eq_left this]; norm_num
  · rw [if_neg h]
    have h' : ¬ n.toInt < (1#32 : BitVec 32).toInt := by simpa [BitVec.slt] using h
    rw [e1] at h'
    have : (1 : ℝ) ≤ ((n.toInt : ℤ) : ℝ) := by exact_mod_cast (not_lt.mp h')
    rw [max_eq_right this]

attribute [local irreducible] Host.reduce Host.gather in
/-- The matched labels are one function of the labels and the match indices in both programs. -/
theorem matched_eq (x1 : IVec Cert.KernelIdeal.S8x100 32) (x2 : IVec Cert.KernelIdeal.S8x80000 32) :
    matchedK x1 x2 = matched x1 x2 := rfl

attribute [local irreducible] Host.reduce in
/-- So is the count of anchors with a non-negative match index. -/
theorem nfg_eq (x2 : IVec Cert.KernelIdeal.S8x80000 32) : nfgK x2 = nfg x2 := rfl

/-- A matched label is not the word −2 when no label is: it is the fill word −2³¹ or a label. -/
theorem matched_ne (x1 : IVec Cert.KernelIdeal.S8x100 32) (x2 : IVec Cert.KernelIdeal.S8x80000 32)
    (hlab : ∀ k, x1 k ≠ 4294967294#32) (j : Cert.KernelIdeal.S8x80000.Idx) : matchedK x1 x2 j ≠ 4294967294#32 := by
  rcases Cert.KernelIdeal.Acc.matchedK_mem x1 x2 j with h | ⟨k, h⟩
  · rw [h]; decide
  · rw [h]; exact hlab k

/-- The per-image sums agree. -/
theorem sums_eq (x0 : Cert.KernelIdeal.S8x80000x91.Idx → EReal) (x1 : IVec Cert.KernelIdeal.S8x100 32)
    (x2 : IVec Cert.KernelIdeal.S8x80000 32) (hfin : ∀ i, ∃ r : ℝ, x0 i = (r : EReal)) (hlab : ∀ k, x1 k ≠ 4294967294#32)
    (b : Fin 8) : kerSum x0 (codeArr x1 x2) b = perImage x0 x1 x2 (ix1 b) := by
  rw [Cert.ReferenceIdeal.RefValue.perImage_apply, ← matched_eq]
  unfold Cert.KernelIdeal.Acc.kerSum
  refine Finset.sum_congr rfl fun a _ => Finset.sum_congr rfl fun r _ => Finset.sum_congr rfl fun cc _ => ?_
  rw [Cert.KernelIdeal.Acc.codeArr_apply]
  obtain ⟨xr, hx⟩ := hfin (ix3 b (anchor a r) cc)
  rw [hx]
  exact (lossArith_eq_lossSel xr cc.val cc.isLt (matchedK x1 x2 (ix2 b (anchor a r))) (x2 (ix2 b (anchor a r)))
    (fun _ => matched_ne x1 x2 hlab _)).symm

/-- The per-image divisors agree. -/
theorem dens_eq (x2 : IVec Cert.KernelIdeal.S8x80000 32) :
    denK x2 = sitofp (F := Ideal) .f32 (maxsi (broadcastInDim Cert.ReferenceIdeal.S8 ![] Cert.ReferenceIdeal.Facts₀.bcast_S_S8
      (constantI Cert.ReferenceIdeal.S_ 32 1#32)) (nfg x2)) := by
  funext j
  rw [← nfg_eq]
  exact den_eq (nfgK x2 j)

/-- The two programs' results are one function of finite logits and labels that are never −2. -/
theorem result_eq (x0 : Cert.KernelIdeal.S8x80000x91.Idx → EReal) (x1 : IVec Cert.KernelIdeal.S8x100 32)
    (x2 : IVec Cert.KernelIdeal.S8x80000 32) (hfin : ∀ i, ∃ r : ℝ, x0 i = (r : EReal)) (hlab : ∀ k, x1 k ≠ 4294967294#32) :
    kernelResult x0 x1 x2 = result x0 x1 x2 := by
  have hS : (fun j : Cert.KernelIdeal.S8.Idx => kerSum x0 (codeArr x1 x2) (j 0)) = perImage x0 x1 x2 := by
    funext j
    obtain ⟨b, rfl⟩ : ∃ b : Fin 8, j = ix1 b := ⟨j 0, eq_ix1 j⟩
    exact sums_eq x0 x1 x2 hfin hlab b
  unfold Cert.KernelIdeal.Acc.kernelResult
  rw [hS, dens_eq]
  rfl

end Cert.Focal

end
-- ==== Proof.lean ====
/-
  The certificate's claim, assembled.

  The kernel computes a sigmoid focal loss: per image, the sum over 80000 anchors and 91 classes of the loss of each
  logit against a one-hot class target, masked where the anchor's match index is −2, divided by the number of anchors
  with a non-negative match index (at least 1), averaged over the 8 images.  The kernel reads the anchors in 16 tiles
  of 5000 per image and accumulates the tiles' totals in a scratch row carried across the tiles of an image; the
  reference is one jnp expression.

  Frames: the two kernel programs' frames are generated whole; the reference's is its run with the result dropped.
  The ideal pass rewrote nothing, so the idealization claim is trivial.  The value claim: at the extended reals both
  programs end with the same function of the arguments (Bridge: `Cert.Focal.result_eq`), for finite logits and labels in
  [0, 91) — the precondition, decoded element by element (PreFacts); the kernel program's value is read off its
  generated frame run (Pieces, Payload, Accum, Final, HostPrelude, HostTail), the reference's off its own run
  (RefRun, RefValue).
-/
import proofs.«177885_j12893491822713_2_alg».proof.Defs
import proofs.«177885_j12893491822713_2_alg».proof.Proof.Gen.Kernel
import proofs.«177885_j12893491822713_2_alg».proof.Proof.Gen.Kernel.Skeleton
import proofs.«177885_j12893491822713_2_alg».proof.Proof.Gen.Kernel.Launch
import proofs.«177885_j12893491822713_2_alg».proof.Proof.Gen.Kernel.Points
import proofs.«177885_j12893491822713_2_alg».proof.Proof.Gen.Kernel.Frame
import proofs.«177885_j12893491822713_2_alg».proof.Proof.Gen.KernelIdeal
import proofs.«177885_j12893491822713_2_alg».proof.Proof.Gen.KernelIdeal.Skeleton
import proofs.«177885_j12893491822713_2_alg».proof.Proof.Gen.KernelIdeal.Launch
import proofs.«177885_j12893491822713_2_alg».proof.Proof.Gen.KernelIdeal.Points
import proofs.«177885_j12893491822713_2_alg».proof.Proof.Gen.KernelIdeal.Frame
import proofs.«177885_j12893491822713_2_alg».proof.Proof.Gen.ReferenceIdeal
import proofs.«177885_j12893491822713_2_alg».proof.Proof.Gen.Pre_finite_inputs
import proofs.«177885_j12893491822713_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- At the extended reals the kernel program ends at `kernelResult` of its arguments and the reference at `result` of
    arguments that agree with them: one function of finite logits and labels that are never the word −2. -/
theorem algebraic : Cert.algebraic_KernelIdeal_ReferenceIdeal := by
  intro m ρ m' ρ' hpre hagree
  have hf := fun c => Cert.Focal.facts_of_pre _ _ _ (hpre c)
  refine ⟨fun c => Cert.ReferenceIdeal.RefValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.Focal.result_eq _ _ _ (hf c).1 (hf c).2), (h c).2⟩)
      (Cert.KernelIdeal.Acc.kernel_run m ρ)
  · exact (θ_run Cert.ReferenceIdeal.defs _ _).mono
      (fun _ h c => ⟨(h c).1.trans (by rw [(hagree c).1, (hagree c).2.1, (hagree c).2.2]), (h c).2⟩)
      (Cert.ReferenceIdeal.RefValue.run m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
